-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S262144x32 : Shape := ⟨2, ![262144, 32]⟩
abbrev S32x32 : Shape := ⟨2, ![32, 32]⟩
abbrev S1x64 : Shape := ⟨2, ![1, 64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S262144x32 : S_.BroadcastsInDim S262144x32 (![] : Fin 0 → Fin S262144x32.rank)
  reducesTo_S262144x32_S_d0_1 : S262144x32.ReducesTo [0, 1] S_
  bcast_S_S32x32 : S_.BroadcastsInDim S32x32 (![] : Fin 0 → Fin S32x32.rank)
  reducesTo_S32x32_S_d0_1 : S32x32.ReducesTo [0, 1] S_
  bcast_S_S1x64 : S_.BroadcastsInDim S1x64 (![] : Fin 0 → Fin S1x64.rank)
  reducesTo_S1x64_S_d0_1 : S1x64.ReducesTo [0, 1] S_

variable [Facts]

def fn_part3 {F : FTy → Type} [FloatOps F] (main_arg11 : FVec F S1x64 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S1x64 .f32 := Host.absf main_arg11
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  main_v58

def fn_part2 {F : FTy → Type} [FloatOps F] (main_arg7 : FVec F S32x32 .f32) (main_arg8 : FVec F S32x32 .f32) (main_arg9 : FVec F S32x32 .f32) (main_arg10 : FVec F S1x64 .f32) (main_arg11 : FVec F S1x64 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S1x64 .f32 := Host.absf main_arg10
  let main_cst_18 : FVec F S_ .f32 := constant S_ .f32 0x7F800000#32
  let main_v50 : FVec F S1x64 .f32 := broadcastInDim S1x64 ![] bcast_S_S1x64 main_cst_18
  fn_part3 (F := F) main_arg11 main_v48 main_v49 main_v50

def fn_part1 {F : FTy → Type} [FloatOps F] (main_arg4 : FVec F S262144x64 .f32) (main_arg5 : FVec F S262144x64 .f32) (main_arg6 : FVec F S32x32 .f32) (main_arg7 : FVec F S32x32 .f32) (main_arg8 : FVec F S32x32 .f32) (main_arg9 : FVec F S32x32 .f32) (main_arg10 : FVec F S1x64 .f32) (main_arg11 : FVec F S1x64 .f32) (main_v13 : IVec S_ 1) (main_v16 : IVec S262144x32 1) : IVec S_ 1 :=
  let main_c_5 : IVec S_ 1 := constantI S_ 1 1#1
  let main_v17 : IVec S_ 1 := (fun x v => Host.reduce IntOp.andi x v reducesTo_S262144x32_S_d0_1 h_S_) main_v16 main_c_5
  let main_v18 : IVec S_ 1 := andi main_v13 main_v17
  let main_v19 : FVec F S262144x64 .f32 := Host.absf main_arg4
  let main_cst_6 : FVec F S_ .f32 := constant S_ .f32 0x7F800000#32
  let main_v20 : FVec F S262144x64 .f32 := broadcastInDim S262144x64 ![] bcast_S_S262144x64 main_cst_6
  let main_v21 : IVec S262144x64 1 := cmpf .olt main_v19 main_v20
  let main_c_7 : IVec S_ 1 := constantI S_ 1 1#1
  let main_v22 : IVec S_ 1 := (fun x v => Host.reduce IntOp.andi x v reducesTo_S262144x64_S_d0_1 h_S_) main_v21 main_c_7
  let main_v23 : IVec S_ 1 := andi main_v18 main_v22
  let main_v24 : FVec F S262144x64 .f32 := Host.absf main_arg5
  let main_cst_8 : FVec F S_ .f32 := constant S_ .f32 0x7F800000#32
  let main_v25 : FVec F S262144x64 .f32 := broadcastInDim S262144x64 ![] bcast_S_S262144x64 main_cst_8
  let main_v26 : IVec S262144x64 1 := cmpf .olt main_v24 main_v25
  let main_c_9 : IVec S_ 1 := constantI S_ 1 1#1
  let main_v27 : IVec S_ 1 := (fun x v => Host.reduce IntOp.andi x v reducesTo_S262144x64_S_d0_1 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S262144x64 .f32) (main_arg1 : FVec F S262144x32 .f32) (main_arg2 : FVec F S262144x32 .f32) (main_arg3 : FVec F S262144x32 .f32) (main_arg4 : FVec F S262144x64 .f32) (main_arg5 : FVec F S262144x64 .f32) (main_arg6 : FVec F S32x32 .f32) (main_arg7 : FVec F S32x32 .f32) (main_arg8 : FVec F S32x32 .f32) (main_arg9 : FVec F S32x32 .f32) (main_arg10 : FVec F S1x64 .f32) (main_arg11 : FVec F S1x64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S262144x32 .f32 := Host.absf main_arg1
  let main_cst_0 : FVec F S_ .f32 := constant S_ .f32 0x7F800000#32
  let main_v5 : FVec F S262144x32 .f32 := broadcastInDim S262144x32 ![] bcast_S_S262144x32 main_cst_0
  let main_v6 : IVec S262144x32 1 := cmpf .olt main_v4 main_v5
  let main_c_1 : IVec S_ 1 := constantI S_ 1 1#1
  let main_v7 : IVec S_ 1 := (fun x v => Host.reduce IntOp.andi x v reducesTo_S262144x32_S_d0_1 h_S_) main_v6 main_c_1
  let main_v8 : IVec S_ 1 := andi main_v3 main_v7
  let main_v9 : FVec F S262144x32 .f32 := Host.absf main_arg2
  let main_cst_2 : FVec F S_ .f32 := constant S_ .f32 0x7F800000#32
  let main_v10 : FVec F S262144x32 .f32 := broadcastInDim S262144x32 ![] bcast_S_S262144x32 main_cst_2
  let main_v11 : IVec S262144x32 1 := cmpf .olt main_v9 main_v10
  let main_c_3 : IVec S_ 1 := constantI S_ 1 1#1
  let main_v12 : IVec S_ 1 := (fun x v => Host.reduce IntOp.andi x v reducesTo_S262144x32_S_d0_1 h_S_) main_v11 main_c_3
  let main_v13 : IVec S_ 1 := andi main_v8 main_v12
  let main_v14 : FVec F S262144x32 .f32 := Host.absf main_arg3
  let main_cst_4 : FVec F S_ .f32 := constant S_ .f32 0x7F800000#32
  let main_v15 : FVec F S262144x32 .f32 := broadcastInDim S262144x32 ![] bcast_S_S262144x32 main_cst_4
  let main_v16 : IVec S262144x32 1 := cmpf .olt main_v14 main_v15
  fn_part1 (F := F) main_arg4 main_arg5 main_arg6 main_arg7 main_arg8 main_arg9 main_arg10 main_arg11 main_v13 main_v16
-- ==== Kernel.lean ====
abbrev S262144x64 : Shape := ⟨2, ![262144, 64]⟩
abbrev S262144x32 : Shape := ⟨2, ![262144, 32]⟩
abbrev S32x32 : Shape := ⟨2, ![32, 32]⟩
abbrev S1x64 : Shape := ⟨2, ![1, 64]⟩
abbrev S128x32 : Shape := ⟨2, ![128, 32]⟩
abbrev S288x32 : Shape := ⟨2, ![288, 32]⟩
abbrev S262144x160 : Shape := ⟨2, ![262144, 160]⟩
abbrev S2048x64 : Shape := ⟨2, ![2048, 64]⟩
abbrev S2048x32 : Shape := ⟨2, ![2048, 32]⟩
abbrev S2048x160 : Shape := ⟨2, ![2048, 160]⟩
abbrev S1x32 : Shape := ⟨2, ![1, 32]⟩

abbrev nBuf : Space → Nat
  | .hbm => 39
  | .vmem => 18
  | .smem => 0
  | _ => 0

abbrev bufTy : (tb : Table) → Fin (tcTables nBuf tb) → BufTy
  | .hbm, ⟨0, _⟩ => ⟨S262144x64, .f32⟩
  | .hbm, ⟨1, _⟩ => ⟨S262144x32, .f32⟩
  | .hbm, ⟨2, _⟩ => ⟨S262144x32, .f32⟩
  | .hbm, ⟨3, _⟩ => ⟨S262144x32, .f32⟩
  | .hbm, ⟨4, _⟩ => ⟨S262144x64, .f32⟩
  | .hbm, ⟨5, _⟩ => ⟨S262144x64, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S32x32, .f32⟩
  | .hbm, ⟨10, _⟩ => ⟨S1x64, .f32⟩
  | .hbm, ⟨11, _⟩ => ⟨S1x64, .f32⟩
  | .hbm, ⟨12, _⟩ => ⟨S32x32, .f32⟩
  | .hbm, ⟨13, _⟩ => ⟨S32x32, .f32⟩
  | .hbm, ⟨14, _⟩ => ⟨S32x32, .f32⟩
  | .hbm, ⟨15, _⟩ => ⟨S32x32, .f32⟩
  | .hbm, ⟨16, _⟩ => ⟨S128x32, .f32⟩
  | .hbm, ⟨17, _⟩ => ⟨S32x32, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S32x32, .f32⟩
  | .hbm, ⟨24, _⟩ => ⟨S32x32, .f32⟩
  | .hbm, ⟨25, _⟩ => ⟨S32x32, .f32⟩
  | .hbm, ⟨26, _⟩ => ⟨S32x32, .f32⟩
  | .hbm, ⟨27, _⟩ => ⟨S32x32, .f32⟩
  | .hbm, ⟨28, _⟩ => ⟨S32x32, .f32⟩
  | .hbm, ⟨29, _⟩ => ⟨S32x32, .f32⟩
  | .hbm, ⟨30, _⟩ => ⟨S32x32, .f32⟩
  | .hbm, ⟨31, _⟩ => ⟨S32x32, .f32⟩
  | .hbm, ⟨32, _⟩ => ⟨S32x32, .f32⟩
  | .hbm, ⟨33, _⟩ => ⟨S32x32, .f32⟩
  | .hbm, ⟨34, _⟩ => ⟨S32x32, .f32⟩
  | .hbm, ⟨35, _⟩ => ⟨S32x32, .f32⟩
  | .hbm, ⟨36, _⟩ => ⟨S32x32, .f32⟩
  | .hbm, ⟨37, _⟩ => ⟨S288x32, .f32⟩
  | .hbm, ⟨38, _⟩ => ⟨S262144x160, .f32⟩
  | .local _ .vmem, ⟨0, _⟩ => ⟨S2048x64, .f32⟩
  | .local _ .vmem, ⟨1, _⟩ => ⟨S2048x64, .f32⟩
  | .local _ .vmem, ⟨2, _⟩ => ⟨S2048x32, .f32⟩
  | .local _ .vmem, ⟨3, _⟩ => ⟨S2048x32, .f32⟩
  | .local _ .vmem, ⟨4, _⟩ => ⟨S2048x32, .f32⟩
  | .local _ .vmem, ⟨5, _⟩ => ⟨S2048x32, .f32⟩
  | .local _ .vmem, ⟨6, _⟩ => ⟨S2048x32, .f32⟩
  | .local _ .vmem, ⟨7, _⟩ => ⟨S2048x32, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S128x32, .f32⟩
  | .local _ .vmem, ⟨13, _⟩ => ⟨S288x32, .f32⟩
  | .local _ .vmem, ⟨14, _⟩ => ⟨S1x64, .f32⟩
  | .local _ .vmem, ⟨15, _⟩ => ⟨S1x64, .f32⟩
  | .local _ .vmem, ⟨16, _⟩ => ⟨S2048x160, .f32⟩
  | .local _ .vmem, ⟨17, _⟩ => ⟨S2048x160, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S288x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x160 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S32x32_S32x32_1_0 : S32x32.Transposes [1, 0] S32x32
  concatenates_S32x32_S32x32_S32x32_S32x32_S128x32_d0 : Shape.Concatenates [S32x32, S32x32, S32x32, S32x32] S128x32 0
  concatenates_S32x32_S32x32_S32x32_S32x32_S32x32_S32x32_S32x32_S32x32_S32x32_S288x32_d0 : Shape.Concatenates [S32x32, S32x32, S32x32, S32x32, S32x32, S32x32, S32x32, S32x32, S32x32] S288x32 0
  inb_S2048x64_S2048x64_0_0 : ∀ a, (![0, 0] : Fin 2 → Nat) a + S2048x64.size a ≤ S2048x64.size a
  h_S2048x64 : 0 < S2048x64.numel
  slices_S2048x64_o0_0_S2048x32 : S2048x64.Slices ![0, 0] S2048x32
  slices_S2048x64_o0_32_S2048x32 : S2048x64.Slices ![0, 32] S2048x32
  inb_S2048x32_S2048x32_0_0 : ∀ a, (![0, 0] : Fin 2 → Nat) a + S2048x32.size a ≤ S2048x32.size a
  h_S2048x32 : 0 < S2048x32.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S288x32_S288x32_0_0 : ∀ a, (![0, 0] : Fin 2 → Nat) a + S288x32.size a ≤ S288x32.size a
  h_S288x32 : 0 < S288x32.numel
  shapeCasts_S288x32_S288x32 : S288x32.ShapeCasts S288x32
  slices_S128x32_o0_0_S32x32 : S128x32.Slices ![0, 0] S32x32
  slices_S128x32_o32_0_S32x32 : S128x32.Slices ![32, 0] S32x32
  slices_S128x32_o64_0_S32x32 : S128x32.Slices ![64, 0] S32x32
  slices_S128x32_o96_0_S32x32 : S128x32.Slices ![96, 0] S32x32
  slices_S288x32_o0_0_S32x32 : S288x32.Slices ![0, 0] S32x32
  slices_S288x32_o32_0_S32x32 : S288x32.Slices ![32, 0] S32x32
  slices_S288x32_o64_0_S32x32 : S288x32.Slices ![64, 0] S32x32
  slices_S288x32_o96_0_S32x32 : S288x32.Slices ![96, 0] S32x32
  slices_S288x32_o128_0_S32x32 : S288x32.Slices ![128, 0] S32x32
  slices_S288x32_o160_0_S32x32 : S288x32.Slices ![160, 0] S32x32
  slices_S288x32_o192_0_S32x32 : S288x32.Slices ![192, 0] S32x32
  slices_S288x32_o224_0_S32x32 : S288x32.Slices ![224, 0] S32x32
  slices_S288x32_o256_0_S32x32 : S288x32.Slices ![256, 0] S32x32
  concatenates_S2048x32_S2048x32_S2048x64_d1 : Shape.Concatenates [S2048x32, S2048x32] S2048x64 1
  inb_S1x64_S1x64_0_0 : ∀ a, (![0, 0] : Fin 2 → Nat) a + S1x64.size a ≤ S1x64.size a
  h_S1x64 : 0 < S1x64.numel
  broadcasts_S1x64_S2048x64 : S1x64.Broadcasts S2048x64
  slices_S1x64_o0_0_S1x32 : S1x64.Slices ![0, 0] S1x32
  broadcasts_S1x32_S2048x32 : S1x32.Broadcasts S2048x32
  slices_S1x64_o0_32_S1x32 : S1x64.Slices ![0, 32] S1x32
  concatenates_S2048x64_S2048x32_S2048x32_S2048x32_S2048x160_d1 : Shape.Concatenates [S2048x64, S2048x32, S2048x32, S2048x32] S2048x160 1
  inb_S2048x160_S2048x160_0_0 : ∀ a, (![0, 0] : Fin 2 → Nat) a + S2048x160.size a ≤ S2048x160.size a
  h_S2048x160 : 0 < S2048x160.numel
  dot_S2048x32_S32x32_S2048x32_1_0_0_1_n_n_wf : DotDims.WF S2048x32 S32x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S262144x64.size a
  hwx0_0 : ∀ i : grid0.Coords, EltTy.bits .f32 = 32 ∨ (Rect.block (s := S262144x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S262144x32.size a
  hwx0_1 : ∀ i : grid0.Coords, EltTy.bits .f32 = 32 ∨ (Rect.block (s := S262144x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S262144x32.size a
  hwx0_2 : ∀ i : grid0.Coords, EltTy.bits .f32 = 32 ∨ (Rect.block (s := S262144x32) S2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S262144x32.size a
  hwx0_3 : ∀ i : grid0.Coords, EltTy.bits .f32 = 32 ∨ (Rect.block (s := S262144x32) S2048x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S262144x64.size a
  hwx0_4 : ∀ i : grid0.Coords, EltTy.bits .f32 = 32 ∨ (Rect.block (s := S262144x64) S2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S262144x64.size a
  hwx0_5 : ∀ i : grid0.Coords, EltTy.bits .f32 = 32 ∨ (Rect.block (s := S262144x64) S2048x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x32.size a ≤ S128x32.size a
  hwx0_6 : ∀ i : grid0.Coords, EltTy.bits .f32 = 32 ∨ (Rect.block (s := S128x32) S128x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S288x32.size a ≤ S288x32.size a
  hwx0_7 : ∀ i : grid0.Coords, EltTy.bits .f32 = 32 ∨ (Rect.block (s := S288x32) S288x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x160.size a ≤ S262144x160.size a
  hwx0_10 : ∀ i : grid0.Coords, EltTy.bits .f32 = 32 ∨ (Rect.block (s := S262144x160) S2048x160.size (cc0_transform_10 i) (hinb0_10 i)).WholeWords (EltTy.packing .f32)

variable [Facts₀]

def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S128x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S288x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S2048x160.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S262144x64 : Shape := ⟨2, ![262144, 64]⟩
abbrev S262144x32 : Shape := ⟨2, ![262144, 32]⟩
abbrev S32x32 : Shape := ⟨2, ![32, 32]⟩
abbrev S1x64 : Shape := ⟨2, ![1, 64]⟩
abbrev S_ : Shape := ⟨0, ![]⟩
abbrev S1x32 : Shape := ⟨2, ![1, 32]⟩
abbrev S262144x160 : Shape := ⟨2, ![262144, 160]⟩

abbrev nBuf : Space → Nat
  | .hbm => 91
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x32, .f32⟩
  | .hbm, ⟨2, _⟩ => ⟨S262144x32, .f32⟩
  | .hbm, ⟨3, _⟩ => ⟨S262144x32, .f32⟩
  | .hbm, ⟨4, _⟩ => ⟨S262144x64, .f32⟩
  | .hbm, ⟨5, _⟩ => ⟨S262144x64, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S32x32, .f32⟩
  | .hbm, ⟨10, _⟩ => ⟨S1x64, .f32⟩
  | .hbm, ⟨11, _⟩ => ⟨S1x64, .f32⟩
  | .hbm, ⟨12, _⟩ => ⟨S262144x32, .f32⟩
  | .hbm, ⟨13, _⟩ => ⟨S262144x32, .f32⟩
  | .hbm, ⟨14, _⟩ => ⟨S32x32, .f32⟩
  | .hbm, ⟨15, _⟩ => ⟨S262144x32, .f32⟩
  | .hbm, ⟨16, _⟩ => ⟨S32x32, .f32⟩
  | .hbm, ⟨17, _⟩ => ⟨S262144x32, .f32⟩
  | .hbm, ⟨18, _⟩ => ⟨S262144x32, .f32⟩
  | .hbm, ⟨19, _⟩ => ⟨S32x32, .f32⟩
  | .hbm, ⟨20, _⟩ => ⟨S262144x32, .f32⟩
  | .hbm, ⟨21, _⟩ => ⟨S32x32, .f32⟩
  | .hbm, ⟨22, _⟩ => ⟨S262144x32, .f32⟩
  | .hbm, ⟨23, _⟩ => ⟨S262144x32, .f32⟩
  | .hbm, ⟨24, _⟩ => ⟨S32x32, .f32⟩
  | .hbm, ⟨25, _⟩ => ⟨S32x32, .f32⟩
  | .hbm, ⟨26, _⟩ => ⟨S262144x32, .f32⟩
  | .hbm, ⟨27, _⟩ => ⟨S32x32, .f32⟩
  | .hbm, ⟨28, _⟩ => ⟨S32x32, .f32⟩
  | .hbm, ⟨29, _⟩ => ⟨S262144x32, .f32⟩
  | .hbm, ⟨30, _⟩ => ⟨S_, .f32⟩
  | .hbm, ⟨31, _⟩ => ⟨S262144x32, .f32⟩
  | .hbm, ⟨32, _⟩ => ⟨S262144x32, .f32⟩
  | .hbm, ⟨33, _⟩ => ⟨S262144x32, .f32⟩
  | .hbm, ⟨34, _⟩ => ⟨S32x32, .f32⟩
  | .hbm, ⟨35, _⟩ => ⟨S32x32, .f32⟩
  | .hbm, ⟨36, _⟩ => ⟨S262144x32, .f32⟩
  | .hbm, ⟨37, _⟩ => ⟨S262144x32, .f32⟩
  | .hbm, ⟨38, _⟩ => ⟨S32x32, .f32⟩
  | .hbm, ⟨39, _⟩ => ⟨S32x32, .f32⟩
  | .hbm, ⟨40, _⟩ => ⟨S262144x32, .f32⟩
  | .hbm, ⟨41, _⟩ => ⟨S32x32, .f32⟩
  | .hbm, ⟨42, _⟩ => ⟨S32x32, .f32⟩
  | .hbm, ⟨43, _⟩ => ⟨S262144x32, .f32⟩
  | .hbm, ⟨44, _⟩ => ⟨S_, .f32⟩
  | .hbm, ⟨45, _⟩ => ⟨S262144x32, .f32⟩
  | .hbm, ⟨46, _⟩ => ⟨S262144x32, .f32⟩
  | .hbm, ⟨47, _⟩ => ⟨S262144x32, .f32⟩
  | .hbm, ⟨48, _⟩ => ⟨S32x32, .f32⟩
  | .hbm, ⟨49, _⟩ => ⟨S32x32, .f32⟩
  | .hbm, ⟨50, _⟩ => ⟨S262144x32, .f32⟩
  | .hbm, ⟨51, _⟩ => ⟨S262144x32, .f32⟩
  | .hbm, ⟨52, _⟩ => ⟨S32x32, .f32⟩
  | .hbm, ⟨53, _⟩ => ⟨S32x32, .f32⟩
  | .hbm, ⟨54, _⟩ => ⟨S262144x32, .f32⟩
  | .hbm, ⟨55, _⟩ => ⟨S32x32, .f32⟩
  | .hbm, ⟨56, _⟩ => ⟨S32x32, .f32⟩
  | .hbm, ⟨57, _⟩ => ⟨S32x32, .f32⟩
  | .hbm, ⟨58, _⟩ => ⟨S32x32, .f32⟩
  | .hbm, ⟨59, _⟩ => ⟨S262144x32, .f32⟩
  | .hbm, ⟨60, _⟩ => ⟨S262144x32, .f32⟩
  | .hbm, ⟨61, _⟩ => ⟨S32x32, .f32⟩
  | .hbm, ⟨62, _⟩ => ⟨S32x32, .f32⟩
  | .hbm, ⟨63, _⟩ => ⟨S262144x32, .f32⟩
  | .hbm, ⟨64, _⟩ => ⟨S262144x32, .f32⟩
  | .hbm, ⟨65, _⟩ => ⟨S262144x64, .f32⟩
  | .hbm, ⟨66, _⟩ => ⟨S262144x64, .f32⟩
  | .hbm, ⟨67, _⟩ => ⟨S262144x64, .f32⟩
  | .hbm, ⟨68, _⟩ => ⟨S262144x64, .f32⟩
  | .hbm, ⟨69, _⟩ => ⟨S1x64, .f32⟩
  | .hbm, ⟨70, _⟩ => ⟨S262144x64, .f32⟩
  | .hbm, ⟨71, _⟩ => ⟨S262144x64, .f32⟩
  | .hbm, ⟨72, _⟩ => ⟨S_, .f32⟩
  | .hbm, ⟨73, _⟩ => ⟨S1x64, .f32⟩
  | .hbm, ⟨74, _⟩ => ⟨S1x64, .i1⟩
  | .hbm, ⟨75, _⟩ => ⟨S1x64, .f32⟩
  | .hbm, ⟨76, _⟩ => ⟨S_, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S262144x32, .f32⟩
  | .hbm, ⟨81, _⟩ => ⟨S262144x32, .f32⟩
  | .hbm, ⟨82, _⟩ => ⟨S1x32, .f32⟩
  | .hbm, ⟨83, _⟩ => ⟨S262144x32, .f32⟩
  | .hbm, ⟨84, _⟩ => ⟨S262144x32, .f32⟩
  | .hbm, ⟨85, _⟩ => ⟨S262144x32, .f32⟩
  | .hbm, ⟨86, _⟩ => ⟨S262144x32, .f32⟩
  | .hbm, ⟨87, _⟩ => ⟨S1x32, .f32⟩
  | .hbm, ⟨88, _⟩ => ⟨S262144x32, .f32⟩
  | .hbm, ⟨89, _⟩ => ⟨S262144x32, .f32⟩
  | .hbm, ⟨90, _⟩ => ⟨S262144x160, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_1 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_2 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩

abbrev nD : Nat := 1
abbrev τ : Topo := Topo.v7x

variable {F : FTy → Type} [FloatOps F]

class Facts₀ : Prop where
  slices_S262144x64_S262144x32_0_0 : S262144x64.Slices ![0, 0] S262144x32
  slices_S262144x64_S262144x32_0_32 : S262144x64.Slices ![0, 32] S262144x32
  transposes_S32x32_S32x32_1_0 : S32x32.Transposes [1, 0] S32x32
  bcast_S_S262144x32 : S_.BroadcastsInDim S262144x32 (![] : Fin 0 → Fin S262144x32.rank)
  concatenates_S262144x32_S262144x32_S262144x64_d1 : Shape.Concatenates [S262144x32, S262144x32] S262144x64 1
  bcast_S1x64_S262144x64_0_1 : S1x64.BroadcastsInDim S262144x64 (![0, 1] : Fin 2 → Fin S262144x64.rank)
  bcast_S_S1x64 : S_.BroadcastsInDim S1x64 (![] : Fin 0 → Fin S1x64.rank)
  slices_S1x64_S1x32_0_0 : S1x64.Slices ![0, 0] S1x32
  bcast_S1x32_S262144x32_0_1 : S1x32.BroadcastsInDim S262144x32 (![0, 1] : Fin 2 → Fin S262144x32.rank)
  slices_S1x64_S1x32_0_32 : S1x64.Slices ![0, 32] S1x32
  concatenates_S262144x64_S262144x32_S262144x32_S262144x32_S262144x160_d1 : Shape.Concatenates [S262144x64, S262144x32, S262144x32, S262144x32] S262144x160 1
  dot_S262144x32_S32x32_S262144x32_1_0_0_1_n_n_wf : DotDims.WF S262144x32 S32x32 S262144x32 [1] [0] [0] [1] [] []

variable [Facts₀]

def dot_S262144x32_S32x32_S262144x32_1_0_0_1_n_n : DotDims S262144x32 S32x32 S262144x32 where
  lhsContracting := [1]
  rhsContracting := [0]
  lhsNonContracting := [0]
  rhsNonContracting := [1]
  lhsBatch := []
  rhsBatch := []
  wf := dot_S262144x32_S32x32_S262144x32_1_0_0_1_n_n_wf

class Facts : Prop extends Facts₀ where

variable [Facts]
-- ==== Proof.EntryBits.lean ====
/-
  The contents of the TensorCore's buffers when the one region of @main is entered, and what follows from them.

  @main is 26 host operations and then the region. The host operations build the two weight slabs: the four
  32×32 matrices transposed and stacked into a 128×32 slab, and nine entrywise products (one of them a sum of
  two products) transposed and stacked into a 288×32 slab. None of them writes an argument array, so the region
  finds every argument as launched. The region stages eleven windows: row blocks of 2048 rows of the six
  batch-sized arguments (windows 0–5), the two slabs and the two 1×64 rows whole (windows 6–9, their block index
  constant over the grid), and row blocks of the 262144×160 result (window 10).

  Stated at any float instance `F`.
-/
import proofs.«149484_j84937273246072_2_alg».proof.Proof.Gen.Kernel.Launch
import proofs.«149484_j84937273246072_2_alg».proof.Proof.Gen.Kernel.Skeleton
import proofs.«149484_j84937273246072_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## @main up to the region -/

/-- Core `c`'s TensorCore buffers when the region is entered: the launch memory after the 26 host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- @main is the host operations and then the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Every host operation writes one of the intermediate buffers `main_v0 … main_v25`: a buffer that is none of
    them is found as launched. The side goals compare buffer numbers. -/
syntax "not_written" : tactic
macro_rules
  | `(tactic| not_written) => `(tactic|
      (simp only [hostOps0, List.flatten_cons, List.flatten_nil, List.append_nil, List.cons_append,
        List.nil_append, List.Forall, StableHlo.nullary_writes, StableHlo.unary_writes, StableHlo.binary_writes,
        StableHlo.nary_writes, Finset.mem_singleton]
       repeat' apply And.intro
       all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by not_written))
theorem V_main_arg1 (c : Dev nD) : V m c main_arg1 = m ((c : Thread nD τ).loc main_arg1) :=
  StableHlo.after_of_forall_not_mem (b := Proc.devRef .tc main_arg1) _ _ (List.forall_iff_forall_mem.mp (by not_written))
theorem V_main_arg2 (c : Dev nD) : V m c main_arg2 = m ((c : Thread nD τ).loc main_arg2) :=
  StableHlo.after_of_forall_not_mem (b := Proc.devRef .tc main_arg2) _ _ (List.forall_iff_forall_mem.mp (by not_written))
theorem V_main_arg3 (c : Dev nD) : V m c main_arg3 = m ((c : Thread nD τ).loc main_arg3) :=
  StableHlo.after_of_forall_not_mem (b := Proc.devRef .tc main_arg3) _ _ (List.forall_iff_forall_mem.mp (by not_written))
theorem V_main_arg4 (c : Dev nD) : V m c main_arg4 = m ((c : Thread nD τ).loc main_arg4) :=
  StableHlo.after_of_forall_not_mem (b := Proc.devRef .tc main_arg4) _ _ (List.forall_iff_forall_mem.mp (by not_written))
theorem V_main_arg5 (c : Dev nD) : V m c main_arg5 = m ((c : Thread nD τ).loc main_arg5) :=
  StableHlo.after_of_forall_not_mem (b := Proc.devRef .tc main_arg5) _ _ (List.forall_iff_forall_mem.mp (by not_written))
theorem V_main_arg6 (c : Dev nD) : V m c main_arg6 = m ((c : Thread nD τ).loc main_arg6) :=
  StableHlo.after_of_forall_not_mem (b := Proc.devRef .tc main_arg6) _ _ (List.forall_iff_forall_mem.mp (by not_written))
theorem V_main_arg7 (c : Dev nD) : V m c main_arg7 = m ((c : Thread nD τ).loc main_arg7) :=
  StableHlo.after_of_forall_not_mem (b := Proc.devRef .tc main_arg7) _ _ (List.forall_iff_forall_mem.mp (by not_written))
theorem V_main_arg8 (c : Dev nD) : V m c main_arg8 = m ((c : Thread nD τ).loc main_arg8) :=
  StableHlo.after_of_forall_not_mem (b := Proc.devRef .tc main_arg8) _ _ (List.forall_iff_forall_mem.mp (by not_written))
theorem V_main_arg9 (c : Dev nD) : V m c main_arg9 = m ((c : Thread nD τ).loc main_arg9) :=
  StableHlo.after_of_forall_not_mem (b := Proc.devRef .tc main_arg9) _ _ (List.forall_iff_forall_mem.mp (by not_written))
theorem V_main_arg10 (c : Dev nD) : V m c main_arg10 = m ((c : Thread nD τ).loc main_arg10) :=
  StableHlo.after_of_forall_not_mem (b := Proc.devRef .tc main_arg10) _ _ (List.forall_iff_forall_mem.mp (by not_written))
theorem V_main_arg11 (c : Dev nD) : V m c main_arg11 = m ((c : Thread nD τ).loc main_arg11) :=
  StableHlo.after_of_forall_not_mem (b := Proc.devRef .tc main_arg11) _ _ (List.forall_iff_forall_mem.mp (by not_written))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    window's block index has not moved), for any proof data whose array is the region-entry contents and whose
    body leaves the block in place. -/
theorem holds_block_0 {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem holds_block_1 {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem holds_block_2 {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem holds_block_3 {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem holds_block_4 {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem holds_block_5 {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem holds_block_6 {c : Dev nD} (dat : Dat τ (Elt F) Unit ℕ (UR sig nD τ) ℕ cfg0 c) (hA : dat.A 6 = V m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem holds_block_7 {c : Dev nD} (dat : Dat τ (Elt F) Unit ℕ (UR sig nD τ) ℕ cfg0 c) (hA : dat.A 7 = V m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem holds_block_8 {c : Dev nD} (dat : Dat τ (Elt F) Unit ℕ (UR sig nD τ) ℕ cfg0 c) (hA : dat.A 8 = V m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)
theorem holds_block_9 {c : Dev nD} (dat : Dat τ (Elt F) Unit ℕ (UR sig nD τ) ℕ cfg0 c) (hA : dat.A 9 = V m c (Pipeline.arrRef spec0 9))
    (hafter : ∀ t, dat.after 9 t = blockAt m c 9 t) (t : Fin cfg0.N) (d) : dat.before 9 t d = blockAt m c 9 t :=
  (dat.before_in_eq_fetched 9 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a frame run -/

/-- For any proof data whose arrays are the region-entry contents, a run to the library's frame post gives the
    frame claim's post: every argument array is either a staged input (kept by the pipeline) or a buffer no
    window stages (kept as the region found it), and the region found it as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 8).trans (((dats 0 c).arrAt_in 8 rfl _).trans ((hA c 8).trans (V_main_arg10 m c))),
      ((h c).1 9).trans (((dats 0 c).arrAt_in 9 rfl _).trans ((hA c 9).trans (V_main_arg11 m c)))⟩) h

end Cert.Kernel.Entry

end
-- ==== Proof.BodyBits.lean ====
/-
  The body of the one kernel at a grid point, and the frame of the program.

  At a point the body loads the ten input blocks whole (2048 rows of each batch-sized argument, the two weight
  slabs, the two 1×64 rows), computes the 2048×160 block
      [ mean | upper covariance | lower covariance | side covariance ]
  — thirteen 32-column matrix products against 32×32 pieces of the slabs, the elementwise terms in the
  1×64 rows, and the noise term `x ↦ if x < 0 then exp x else x + 1` —, and stores it whole into the output
  window's buffer. So after the body the output buffer holds that one payload, a function of the ten input
  blocks, and every input buffer holds its block still. The pipeline's proof data says exactly this, the body's
  triple proves it by symbolic execution, and the library's frame run gives the frame.

  Stated at any float instance `F`.
-/
import proofs.«149484_j84937273246072_2_alg».proof.Proof.EntryBits

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Entry

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store take a buffer whole -/

abbrev rWide : Rect S2048x64 := Rect.unit (s := S2048x64) ![0, 0] S2048x64.size inb_S2048x64_S2048x64_0_0
abbrev rHalf : Rect S2048x32 := Rect.unit (s := S2048x32) ![0, 0] S2048x32.size inb_S2048x32_S2048x32_0_0
abbrev rMean : Rect S128x32 := Rect.unit (s := S128x32) ![0, 0] S128x32.size inb_S128x32_S128x32_0_0
abbrev rCov : Rect S288x32 := Rect.unit (s := S288x32) ![0, 0] S288x32.size inb_S288x32_S288x32_0_0
abbrev rRow : Rect S1x64 := Rect.unit (s := S1x64) ![0, 0] S1x64.size inb_S1x64_S1x64_0_0
abbrev rOut : Rect S2048x160 := Rect.unit (s := S2048x160) ![0, 0] S2048x160.size inb_S2048x160_S2048x160_0_0

/-! ## What the body computes and leaves -/

/-- The stored block as ONE function of the ten loaded values: the four column groups, each from the matrix
    products and elementwise terms it is made of, concatenated. -/
def payload (v0 : Vec F S2048x64 .f32) (v3 : Vec F S2048x32 .f32) (v4 : Vec F S2048x32 .f32) (v5 : Vec F S2048x32 .f32)
    (v56 : Vec F S2048x64 .f32) (v57 : Vec F S2048x64 .f32) (v11 : Vec F S128x32 .f32) (v14 : Vec F S288x32 .f32)
    (v58 : Vec F S1x64 .f32) (v59 : Vec F S1x64 .f32) : Vec F S2048x160 .f32 :=
  k0_pay1 (k0_pay20 (k0_pay4 v3) (k0_pay5 v4) (k0_pay6 v5) (k0_pay15 v14) (k0_pay16 v14) (k0_pay17 v14))
      (k0_pay21 (k0_pay9 v0 v11) (k0_pay10 v0 v11) v56 v58)
      (k0_pay24 (k0_pay5 v4) (k0_pay11 v14) (k0_pay18 v3 v14) (k0_pay19 v5 v14) v57 v58 v59)
      (k0_pay25 (k0_pay4 v3) (k0_pay5 v4) (k0_pay6 v5) (k0_pay12 v14) (k0_pay13 v14) (k0_pay14 v14) v57 v58 v59)

/-- The output window's staging buffer after the body, from the input windows' blocks: its one store. -/
def outBlock (x0 : Vec F S2048x64 .f32) (x1 : Vec F S2048x32 .f32) (x2 : Vec F S2048x32 .f32) (x3 : Vec F S2048x32 .f32) (x4 : Vec F S2048x64 .f32) (x5 : Vec F S2048x64 .f32) (x6 : Vec F S128x32 .f32) (x7 : Vec F S288x32 .f32) (x8 : Vec F S1x64 .f32) (x9 : Vec F S1x64 .f32) : Vec F S2048x160 .f32 :=
  View.canon [⟨rOut, k0_pay1 (k0_pay20 (k0_pay4 (View.ld x1 rHalf)) (k0_pay5 (View.ld x2 rHalf)) (k0_pay6 (View.ld x3 rHalf)) (k0_pay15 (View.ld x7 rCov)) (k0_pay16 (View.ld x7 rCov)) (k0_pay17 (View.ld x7 rCov)))
      (k0_pay21 (k0_pay9 (View.ld x0 rWide) (View.ld x6 rMean)) (k0_pay10 (View.ld x0 rWide) (View.ld x6 rMean)) (View.ld x4 rWide) (View.ld x8 rRow))
      (k0_pay24 (k0_pay5 (View.ld x2 rHalf)) (k0_pay11 (View.ld x7 rCov)) (k0_pay18 (View.ld x1 rHalf) (View.ld x7 rCov)) (k0_pay19 (View.ld x3 rHalf) (View.ld x7 rCov)) (View.ld x5 rWide) (View.ld x8 rRow) (View.ld x9 rRow))
      (k0_pay25 (k0_pay4 (View.ld x1 rHalf)) (k0_pay5 (View.ld x2 rHalf)) (k0_pay6 (View.ld x3 rHalf)) (k0_pay12 (View.ld x7 rCov)) (k0_pay13 (View.ld x7 rCov)) (k0_pay14 (View.ld x7 rCov)) (View.ld x5 rWide) (View.ld x8 rRow) (View.ld x9 rRow))⟩]

/-- The same, over the named payload. -/
theorem outBlock_eq (x0 : Vec F S2048x64 .f32) (x1 : Vec F S2048x32 .f32) (x2 : Vec F S2048x32 .f32) (x3 : Vec F S2048x32 .f32) (x4 : Vec F S2048x64 .f32) (x5 : Vec F S2048x64 .f32) (x6 : Vec F S128x32 .f32) (x7 : Vec F S288x32 .f32) (x8 : Vec F S1x64 .f32) (x9 : Vec F S1x64 .f32) :
    outBlock x0 x1 x2 x3 x4 x5 x6 x7 x8 x9 = View.canon [⟨rOut, payload (View.ld x0 rWide) (View.ld x1 rHalf) (View.ld x2 rHalf) (View.ld x3 rHalf) (View.ld x4 rWide) (View.ld x5 rWide) (View.ld x6 rMean) (View.ld x7 rCov) (View.ld x8 rRow) (View.ld x9 rRow)⟩] := rfl

/-- The one store covers the buffer. -/
theorem covers (p0 : Vec F S2048x160 .f32) (y : S2048x160.Idx) :
    ∃ pc ∈ ([⟨rOut, p0⟩] : List (View.Piece (Elt F) S2048x160 .f32)), y ∈ pc.1.set :=
  View.cover_of_tiled [⟨rOut, p0⟩] S2048x160.size (by rfl) y

/-! ## The body's triple -/

set_option maxHeartbeats 4000000 in
/-- On whole staging memrefs, the inputs' at read contents `x0 … x9` and the output's at anything, the body runs to
    the continuation holding the inputs' as they were and the output's at `outBlock` of them. -/
theorem body_runs (c : Dev nD) (E : Set ℕ) (i : grid0.Coords) (arg1 : Memref sig .tc .vmem S2048x64 .f32) (harg1 : arg1.IsWhole) (arg2 : Memref sig .tc .vmem S2048x32 .f32) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S128x32 .f32) (harg7 : arg7.IsWhole) (arg8 : Memref sig .tc .vmem S288x32 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2048x160 .f32) (harg11 : arg11.IsWhole)
    (x0 : Vec F S2048x64 .f32) (x1 : Vec F S2048x32 .f32) (x2 : Vec F S2048x32 .f32) (x3 : Vec F S2048x32 .f32) (x4 : Vec F S2048x64 .f32) (x5 : Vec F S2048x64 .f32) (x6 : Vec F S128x32 .f32) (x7 : Vec F S288x32 .f32) (x8 : Vec F S1x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outBlock x0 x1 x2 x3 x4 x5 x6 x7 x8 x9)) -∗ K ⟨⟩))
      ⊢ wp frame (wpE (defs₀ (F := F)) Variants.none c none) E (cc0__predict_kernel i arg1 harg1 arg2 harg2 arg3 harg3 arg4 harg4 arg5 harg5 arg6 harg6 arg7 harg7 arg8 harg8 arg9 harg9 arg10 harg10 arg11 harg11) K := by
  simp only [cc0__predict_kernel_eq_skeleton]; unfold cc0__predict_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (covers _)

/-! ## The pipeline's proof data -/

/-- On core `c`: the arrays as the region finds them; after the body at point `t` each input's buffer at its
    block and the output's at `outBlock` of the input blocks; the invariant the scoped rest and the core's
    random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => outBlock (blockAt m c 0 t) (blockAt m c 1 t) (blockAt m c 2 t) (blockAt m c 3 t) (blockAt m c 4 t) (blockAt m c 5 t) (blockAt m c 6 t) (blockAt m c 7 t) (blockAt m c 8 t) (blockAt m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t = blockAt m c 8 t := by dsimp only [dats]
theorem after_9 (c : Dev nD) (t : Fin cfg0.N) : (dats m 0 c).after 9 t = blockAt m c 9 t := by dsimp only [dats]
theorem after_10 (c : Dev nD) (t : Fin cfg0.N) :
    (dats m 0 c).after 10 t = outBlock (blockAt m c 0 t) (blockAt m c 1 t) (blockAt m c 2 t) (blockAt m c 3 t) (blockAt m c 4 t) (blockAt m c 5 t) (blockAt m c 6 t) (blockAt m c 7 t) (blockAt m c 8 t) (blockAt m c 9 t) := by dsimp only [dats]

theorem before_0 (c : Dev nD) (t : Fin cfg0.N) (d) : (dats m 0 c).before 0 t d = blockAt m c 0 t :=
  holds_block_0 m (dats m 0 c) (A_eq m c 0) (after_0 m c) t d
theorem before_1 (c : Dev nD) (t : Fin cfg0.N) (d) : (dats m 0 c).before 1 t d = blockAt m c 1 t :=
  holds_block_1 m (dats m 0 c) (A_eq m c 1) (after_1 m c) t d
theorem before_2 (c : Dev nD) (t : Fin cfg0.N) (d) : (dats m 0 c).before 2 t d = blockAt m c 2 t :=
  holds_block_2 m (dats m 0 c) (A_eq m c 2) (after_2 m c) t d
theorem before_3 (c : Dev nD) (t : Fin cfg0.N) (d) : (dats m 0 c).before 3 t d = blockAt m c 3 t :=
  holds_block_3 m (dats m 0 c) (A_eq m c 3) (after_3 m c) t d
theorem before_4 (c : Dev nD) (t : Fin cfg0.N) (d) : (dats m 0 c).before 4 t d = blockAt m c 4 t :=
  holds_block_4 m (dats m 0 c) (A_eq m c 4) (after_4 m c) t d
theorem before_5 (c : Dev nD) (t : Fin cfg0.N) (d) : (dats m 0 c).before 5 t d = blockAt m c 5 t :=
  holds_block_5 m (dats m 0 c) (A_eq m c 5) (after_5 m c) t d
theorem before_6 (c : Dev nD) (t : Fin cfg0.N) (d) : (dats m 0 c).before 6 t d = blockAt m c 6 t :=
  holds_block_6 m (dats m 0 c) (A_eq m c 6) (after_6 m c) t d
theorem before_7 (c : Dev nD) (t : Fin cfg0.N) (d) : (dats m 0 c).before 7 t d = blockAt m c 7 t :=
  holds_block_7 m (dats m 0 c) (A_eq m c 7) (after_7 m c) t d
theorem before_8 (c : Dev nD) (t : Fin cfg0.N) (d) : (dats m 0 c).before 8 t d = blockAt m c 8 t :=
  holds_block_8 m (dats m 0 c) (A_eq m c 8) (after_8 m c) t d
theorem before_9 (c : Dev nD) (t : Fin cfg0.N) (d) : (dats m 0 c).before 9 t d = blockAt m c 9 t :=
  holds_block_9 m (dats m 0 c) (A_eq m c 9) (after_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- At any point the inputs' memrefs hold their blocks, so the body's triple applies; the invariant and the core's
    obligations pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_runs c Set.univ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, and every final state has
    every array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its twelve argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Body

end
-- ==== Proof.EntryIdeal.lean ====
/-
  The contents of the TensorCore's buffers when the one region of @main is entered, and what follows from them.

  @main is 26 host operations and then the region. The host operations build the two weight slabs: the four
  32×32 matrices transposed and stacked into a 128×32 slab, and nine entrywise products (one of them a sum of
  two products) transposed and stacked into a 288×32 slab. None of them writes an argument array, so the region
  finds every argument as launched. The region stages eleven windows: row blocks of 2048 rows of the six
  batch-sized arguments (windows 0–5), the two slabs and the two 1×64 rows whole (windows 6–9, their block index
  constant over the grid), and row blocks of the 262144×160 result (window 10).

  Stated at any float instance `F`.
-/
import proofs.«149484_j84937273246072_2_alg».proof.Proof.Gen.KernelIdeal.Launch
import proofs.«149484_j84937273246072_2_alg».proof.Proof.Gen.KernelIdeal.Skeleton
import proofs.«149484_j84937273246072_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## @main up to the region -/

/-- Core `c`'s TensorCore buffers when the region is entered: the launch memory after the 26 host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- @main is the host operations and then the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Every host operation writes one of the intermediate buffers `main_v0 … main_v25`: a buffer that is none of
    them is found as launched. The side goals compare buffer numbers. -/
syntax "not_written" : tactic
macro_rules
  | `(tactic| not_written) => `(tactic|
      (simp only [hostOps0, List.flatten_cons, List.flatten_nil, List.append_nil, List.cons_append,
        List.nil_append, List.Forall, StableHlo.nullary_writes, StableHlo.unary_writes, StableHlo.binary_writes,
        StableHlo.nary_writes, Finset.mem_singleton]
       repeat' apply And.intro
       all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by not_written))
theorem V_main_arg1 (c : Dev nD) : V m c main_arg1 = m ((c : Thread nD τ).loc main_arg1) :=
  StableHlo.after_of_forall_not_mem (b := Proc.devRef .tc main_arg1) _ _ (List.forall_iff_forall_mem.mp (by not_written))
theorem V_main_arg2 (c : Dev nD) : V m c main_arg2 = m ((c : Thread nD τ).loc main_arg2) :=
  StableHlo.after_of_forall_not_mem (b := Proc.devRef .tc main_arg2) _ _ (List.forall_iff_forall_mem.mp (by not_written))
theorem V_main_arg3 (c : Dev nD) : V m c main_arg3 = m ((c : Thread nD τ).loc main_arg3) :=
  StableHlo.after_of_forall_not_mem (b := Proc.devRef .tc main_arg3) _ _ (List.forall_iff_forall_mem.mp (by not_written))
theorem V_main_arg4 (c : Dev nD) : V m c main_arg4 = m ((c : Thread nD τ).loc main_arg4) :=
  StableHlo.after_of_forall_not_mem (b := Proc.devRef .tc main_arg4) _ _ (List.forall_iff_forall_mem.mp (by not_written))
theorem V_main_arg5 (c : Dev nD) : V m c main_arg5 = m ((c : Thread nD τ).loc main_arg5) :=
  StableHlo.after_of_forall_not_mem (b := Proc.devRef .tc main_arg5) _ _ (List.forall_iff_forall_mem.mp (by not_written))
theorem V_main_arg6 (c : Dev nD) : V m c main_arg6 = m ((c : Thread nD τ).loc main_arg6) :=
  StableHlo.after_of_forall_not_mem (b := Proc.devRef .tc main_arg6) _ _ (List.forall_iff_forall_mem.mp (by not_written))
theorem V_main_arg7 (c : Dev nD) : V m c main_arg7 = m ((c : Thread nD τ).loc main_arg7) :=
  StableHlo.after_of_forall_not_mem (b := Proc.devRef .tc main_arg7) _ _ (List.forall_iff_forall_mem.mp (by not_written))
theorem V_main_arg8 (c : Dev nD) : V m c main_arg8 = m ((c : Thread nD τ).loc main_arg8) :=
  StableHlo.after_of_forall_not_mem (b := Proc.devRef .tc main_arg8) _ _ (List.forall_iff_forall_mem.mp (by not_written))
theorem V_main_arg9 (c : Dev nD) : V m c main_arg9 = m ((c : Thread nD τ).loc main_arg9) :=
  StableHlo.after_of_forall_not_mem (b := Proc.devRef .tc main_arg9) _ _ (List.forall_iff_forall_mem.mp (by not_written))
theorem V_main_arg10 (c : Dev nD) : V m c main_arg10 = m ((c : Thread nD τ).loc main_arg10) :=
  StableHlo.after_of_forall_not_mem (b := Proc.devRef .tc main_arg10) _ _ (List.forall_iff_forall_mem.mp (by not_written))
theorem V_main_arg11 (c : Dev nD) : V m c main_arg11 = m ((c : Thread nD τ).loc main_arg11) :=
  StableHlo.after_of_forall_not_mem (b := Proc.devRef .tc main_arg11) _ _ (List.forall_iff_forall_mem.mp (by not_written))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    window's block index has not moved), for any proof data whose array is the region-entry contents and whose
    body leaves the block in place. -/
theorem holds_block_0 {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem holds_block_1 {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem holds_block_2 {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem holds_block_3 {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem holds_block_4 {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem holds_block_5 {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem holds_block_6 {c : Dev nD} (dat : Dat τ (Elt F) Unit ℕ (UR sig nD τ) ℕ cfg0 c) (hA : dat.A 6 = V m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem holds_block_7 {c : Dev nD} (dat : Dat τ (Elt F) Unit ℕ (UR sig nD τ) ℕ cfg0 c) (hA : dat.A 7 = V m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem holds_block_8 {c : Dev nD} (dat : Dat τ (Elt F) Unit ℕ (UR sig nD τ) ℕ cfg0 c) (hA : dat.A 8 = V m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)
theorem holds_block_9 {c : Dev nD} (dat : Dat τ (Elt F) Unit ℕ (UR sig nD τ) ℕ cfg0 c) (hA : dat.A 9 = V m c (Pipeline.arrRef spec0 9))
    (hafter : ∀ t, dat.after 9 t = blockAt m c 9 t) (t : Fin cfg0.N) (d) : dat.before 9 t d = blockAt m c 9 t :=
  (dat.before_in_eq_fetched 9 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a frame run -/

/-- For any proof data whose arrays are the region-entry contents, a run to the library's frame post gives the
    frame claim's post: every argument array is either a staged input (kept by the pipeline) or a buffer no
    window stages (kept as the region found it), and the region found it as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 8).trans (((dats 0 c).arrAt_in 8 rfl _).trans ((hA c 8).trans (V_main_arg10 m c))),
      ((h c).1 9).trans (((dats 0 c).arrAt_in 9 rfl _).trans ((hA c 9).trans (V_main_arg11 m c)))⟩) h

end Cert.KernelIdeal.Entry

end
-- ==== Proof.BodyIdeal.lean ====
/-
  The body of the one kernel at a grid point, and the frame of the program.

  At a point the body loads the ten input blocks whole (2048 rows of each batch-sized argument, the two weight
  slabs, the two 1×64 rows), computes the 2048×160 block
      [ mean | upper covariance | lower covariance | side covariance ]
  — thirteen 32-column matrix products against 32×32 pieces of the slabs, the elementwise terms in the
  1×64 rows, and the noise term `x ↦ if x < 0 then exp x else x + 1` —, and stores it whole into the output
  window's buffer. So after the body the output buffer holds that one payload, a function of the ten input
  blocks, and every input buffer holds its block still. The pipeline's proof data says exactly this, the body's
  triple proves it by symbolic execution, and the library's frame run gives the frame.

  Stated at any float instance `F`.
-/
import proofs.«149484_j84937273246072_2_alg».proof.Proof.EntryIdeal

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Entry

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store take a buffer whole -/

abbrev rWide : Rect S2048x64 := Rect.unit (s := S2048x64) ![0, 0] S2048x64.size inb_S2048x64_S2048x64_0_0
abbrev rHalf : Rect S2048x32 := Rect.unit (s := S2048x32) ![0, 0] S2048x32.size inb_S2048x32_S2048x32_0_0
abbrev rMean : Rect S128x32 := Rect.unit (s := S128x32) ![0, 0] S128x32.size inb_S128x32_S128x32_0_0
abbrev rCov : Rect S288x32 := Rect.unit (s := S288x32) ![0, 0] S288x32.size inb_S288x32_S288x32_0_0
abbrev rRow : Rect S1x64 := Rect.unit (s := S1x64) ![0, 0] S1x64.size inb_S1x64_S1x64_0_0
abbrev rOut : Rect S2048x160 := Rect.unit (s := S2048x160) ![0, 0] S2048x160.size inb_S2048x160_S2048x160_0_0

/-! ## What the body computes and leaves -/

/-- The stored block as ONE function of the ten loaded values: the four column groups, each from the matrix
    products and elementwise terms it is made of, concatenated. -/
def payload (v0 : Vec F S2048x64 .f32) (v3 : Vec F S2048x32 .f32) (v4 : Vec F S2048x32 .f32) (v5 : Vec F S2048x32 .f32)
    (v56 : Vec F S2048x64 .f32) (v57 : Vec F S2048x64 .f32) (v11 : Vec F S128x32 .f32) (v14 : Vec F S288x32 .f32)
    (v58 : Vec F S1x64 .f32) (v59 : Vec F S1x64 .f32) : Vec F S2048x160 .f32 :=
  k0_pay1 (k0_pay20 (k0_pay4 v3) (k0_pay5 v4) (k0_pay6 v5) (k0_pay15 v14) (k0_pay16 v14) (k0_pay17 v14))
      (k0_pay21 (k0_pay9 v0 v11) (k0_pay10 v0 v11) v56 v58)
      (k0_pay24 (k0_pay5 v4) (k0_pay11 v14) (k0_pay18 v3 v14) (k0_pay19 v5 v14) v57 v58 v59)
      (k0_pay25 (k0_pay4 v3) (k0_pay5 v4) (k0_pay6 v5) (k0_pay12 v14) (k0_pay13 v14) (k0_pay14 v14) v57 v58 v59)

/-- The output window's staging buffer after the body, from the input windows' blocks: its one store. -/
def outBlock (x0 : Vec F S2048x64 .f32) (x1 : Vec F S2048x32 .f32) (x2 : Vec F S2048x32 .f32) (x3 : Vec F S2048x32 .f32) (x4 : Vec F S2048x64 .f32) (x5 : Vec F S2048x64 .f32) (x6 : Vec F S128x32 .f32) (x7 : Vec F S288x32 .f32) (x8 : Vec F S1x64 .f32) (x9 : Vec F S1x64 .f32) : Vec F S2048x160 .f32 :=
  View.canon [⟨rOut, k0_pay1 (k0_pay20 (k0_pay4 (View.ld x1 rHalf)) (k0_pay5 (View.ld x2 rHalf)) (k0_pay6 (View.ld x3 rHalf)) (k0_pay15 (View.ld x7 rCov)) (k0_pay16 (View.ld x7 rCov)) (k0_pay17 (View.ld x7 rCov)))
      (k0_pay21 (k0_pay9 (View.ld x0 rWide) (View.ld x6 rMean)) (k0_pay10 (View.ld x0 rWide) (View.ld x6 rMean)) (View.ld x4 rWide) (View.ld x8 rRow))
      (k0_pay24 (k0_pay5 (View.ld x2 rHalf)) (k0_pay11 (View.ld x7 rCov)) (k0_pay18 (View.ld x1 rHalf) (View.ld x7 rCov)) (k0_pay19 (View.ld x3 rHalf) (View.ld x7 rCov)) (View.ld x5 rWide) (View.ld x8 rRow) (View.ld x9 rRow))
      (k0_pay25 (k0_pay4 (View.ld x1 rHalf)) (k0_pay5 (View.ld x2 rHalf)) (k0_pay6 (View.ld x3 rHalf)) (k0_pay12 (View.ld x7 rCov)) (k0_pay13 (View.ld x7 rCov)) (k0_pay14 (View.ld x7 rCov)) (View.ld x5 rWide) (View.ld x8 rRow) (View.ld x9 rRow))⟩]

/-- The same, over the named payload. -/
theorem outBlock_eq (x0 : Vec F S2048x64 .f32) (x1 : Vec F S2048x32 .f32) (x2 : Vec F S2048x32 .f32) (x3 : Vec F S2048x32 .f32) (x4 : Vec F S2048x64 .f32) (x5 : Vec F S2048x64 .f32) (x6 : Vec F S128x32 .f32) (x7 : Vec F S288x32 .f32) (x8 : Vec F S1x64 .f32) (x9 : Vec F S1x64 .f32) :
    outBlock x0 x1 x2 x3 x4 x5 x6 x7 x8 x9 = View.canon [⟨rOut, payload (View.ld x0 rWide) (View.ld x1 rHalf) (View.ld x2 rHalf) (View.ld x3 rHalf) (View.ld x4 rWide) (View.ld x5 rWide) (View.ld x6 rMean) (View.ld x7 rCov) (View.ld x8 rRow) (View.ld x9 rRow)⟩] := rfl

/-- The one store covers the buffer. -/
theorem covers (p0 : Vec F S2048x160 .f32) (y : S2048x160.Idx) :
    ∃ pc ∈ ([⟨rOut, p0⟩] : List (View.Piece (Elt F) S2048x160 .f32)), y ∈ pc.1.set :=
  View.cover_of_tiled [⟨rOut, p0⟩] S2048x160.size (by rfl) y

/-! ## The body's triple -/

set_option maxHeartbeats 4000000 in
/-- On whole staging memrefs, the inputs' at read contents `x0 … x9` and the output's at anything, the body runs to
    the continuation holding the inputs' as they were and the output's at `outBlock` of them. -/
theorem body_runs (c : Dev nD) (E : Set ℕ) (i : grid0.Coords) (arg1 : Memref sig .tc .vmem S2048x64 .f32) (harg1 : arg1.IsWhole) (arg2 : Memref sig .tc .vmem S2048x32 .f32) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S128x32 .f32) (harg7 : arg7.IsWhole) (arg8 : Memref sig .tc .vmem S288x32 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S2048x160 .f32) (harg11 : arg11.IsWhole)
    (x0 : Vec F S2048x64 .f32) (x1 : Vec F S2048x32 .f32) (x2 : Vec F S2048x32 .f32) (x3 : Vec F S2048x32 .f32) (x4 : Vec F S2048x64 .f32) (x5 : Vec F S2048x64 .f32) (x6 : Vec F S128x32 .f32) (x7 : Vec F S288x32 .f32) (x8 : Vec F S1x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outBlock x0 x1 x2 x3 x4 x5 x6 x7 x8 x9)) -∗ K ⟨⟩))
      ⊢ wp frame (wpE (defs₀ (F := F)) Variants.none c none) E (cc0__predict_kernel i arg1 harg1 arg2 harg2 arg3 harg3 arg4 harg4 arg5 harg5 arg6 harg6 arg7 harg7 arg8 harg8 arg9 harg9 arg10 harg10 arg11 harg11) K := by
  simp only [cc0__predict_kernel_eq_skeleton]; unfold cc0__predict_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (covers _)

/-! ## The pipeline's proof data -/

/-- On core `c`: the arrays as the region finds them; after the body at point `t` each input's buffer at its
    block and the output's at `outBlock` of the input blocks; the invariant the scoped rest and the core's
    random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => outBlock (blockAt m c 0 t) (blockAt m c 1 t) (blockAt m c 2 t) (blockAt m c 3 t) (blockAt m c 4 t) (blockAt m c 5 t) (blockAt m c 6 t) (blockAt m c 7 t) (blockAt m c 8 t) (blockAt m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t = blockAt m c 8 t := by dsimp only [dats]
theorem after_9 (c : Dev nD) (t : Fin cfg0.N) : (dats m 0 c).after 9 t = blockAt m c 9 t := by dsimp only [dats]
theorem after_10 (c : Dev nD) (t : Fin cfg0.N) :
    (dats m 0 c).after 10 t = outBlock (blockAt m c 0 t) (blockAt m c 1 t) (blockAt m c 2 t) (blockAt m c 3 t) (blockAt m c 4 t) (blockAt m c 5 t) (blockAt m c 6 t) (blockAt m c 7 t) (blockAt m c 8 t) (blockAt m c 9 t) := by dsimp only [dats]

theorem before_0 (c : Dev nD) (t : Fin cfg0.N) (d) : (dats m 0 c).before 0 t d = blockAt m c 0 t :=
  holds_block_0 m (dats m 0 c) (A_eq m c 0) (after_0 m c) t d
theorem before_1 (c : Dev nD) (t : Fin cfg0.N) (d) : (dats m 0 c).before 1 t d = blockAt m c 1 t :=
  holds_block_1 m (dats m 0 c) (A_eq m c 1) (after_1 m c) t d
theorem before_2 (c : Dev nD) (t : Fin cfg0.N) (d) : (dats m 0 c).before 2 t d = blockAt m c 2 t :=
  holds_block_2 m (dats m 0 c) (A_eq m c 2) (after_2 m c) t d
theorem before_3 (c : Dev nD) (t : Fin cfg0.N) (d) : (dats m 0 c).before 3 t d = blockAt m c 3 t :=
  holds_block_3 m (dats m 0 c) (A_eq m c 3) (after_3 m c) t d
theorem before_4 (c : Dev nD) (t : Fin cfg0.N) (d) : (dats m 0 c).before 4 t d = blockAt m c 4 t :=
  holds_block_4 m (dats m 0 c) (A_eq m c 4) (after_4 m c) t d
theorem before_5 (c : Dev nD) (t : Fin cfg0.N) (d) : (dats m 0 c).before 5 t d = blockAt m c 5 t :=
  holds_block_5 m (dats m 0 c) (A_eq m c 5) (after_5 m c) t d
theorem before_6 (c : Dev nD) (t : Fin cfg0.N) (d) : (dats m 0 c).before 6 t d = blockAt m c 6 t :=
  holds_block_6 m (dats m 0 c) (A_eq m c 6) (after_6 m c) t d
theorem before_7 (c : Dev nD) (t : Fin cfg0.N) (d) : (dats m 0 c).before 7 t d = blockAt m c 7 t :=
  holds_block_7 m (dats m 0 c) (A_eq m c 7) (after_7 m c) t d
theorem before_8 (c : Dev nD) (t : Fin cfg0.N) (d) : (dats m 0 c).before 8 t d = blockAt m c 8 t :=
  holds_block_8 m (dats m 0 c) (A_eq m c 8) (after_8 m c) t d
theorem before_9 (c : Dev nD) (t : Fin cfg0.N) (d) : (dats m 0 c).before 9 t d = blockAt m c 9 t :=
  holds_block_9 m (dats m 0 c) (A_eq m c 9) (after_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- At any point the inputs' memrefs hold their blocks, so the body's triple applies; the invariant and the core's
    obligations pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_runs c Set.univ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, and every final state has
    every array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its twelve argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Body

end
-- ==== Proof.LibConcatRead.lean ====
/-
  A concatenation of rank-2 arrays read at an index, along either axis, and a slice of a stack read back as one
  of its pieces.

  A concatenation along an axis lays its pieces end to end on that axis: the entry at coordinate `c` on the axis
  belongs to the piece whose span `[pre, pre + extent)` holds `c` (`pre` the extents of the pieces before it), at
  coordinate `c - pre`, the other coordinate unchanged. Stated for arrays of two axes with literal shape
  constructors, for the columns (axis 1) and for the rows (axis 0); and, from the rows' form, the slice of
  `nk` rows at row `pre` of a stack is the `nk`-row piece whose span starts at `pre`.
-/
import Idealize.ShloMosaic.Lib.Pipeline.Value

noncomputable section

namespace Cert.LibConcatRead

open Idealize.ShloMosaic

variable {α : Type}

/-! ## A concatenation along the columns, read at an index -/

/-- Piece `k` of a column-wise concatenation of arrays of `n` rows holds the entries whose column lies in its
    span `[pre, pre + Ck)`, at the column counted from `pre`. -/
theorem concat_cols_apply {n C : Nat} (xs : List ((s : Shape) × (s.Idx → α)))
    (h : Shape.Concatenates (xs.map (·.1)) (⟨2, ![n, C]⟩ : Shape) 1) (j : (⟨2, ![n, C]⟩ : Shape).Idx)
    (k : Nat) (hk : k < xs.length) (Ck : Nat) (x₁ : (⟨2, ![n, Ck]⟩ : Shape).Idx → α)
    (hxk : xs[k] = ⟨(⟨2, ![n, Ck]⟩ : Shape), x₁⟩) (pre : Nat)
    (hpre : (((xs.take k).map (·.1)).map fun s => if h : s.rank = (⟨2, ![n, C]⟩ : Shape).rank then s.size ((1 : Fin 2).cast h.symm) else 0).sum = pre)
    (hlo : pre ≤ (j 1).val) (hhi : (j 1).val < pre + Ck) :
    concatenate (⟨2, ![n, C]⟩ : Shape) 1 xs h j
      = x₁ (fun a => match a with
          | ⟨0, _⟩ => ⟨(j 0).val, (j 0).isLt⟩
          | ⟨1, _⟩ => ⟨(j 1).val - pre, by show (j 1).val - pre < Ck; omega⟩) :=
  concatenate_apply_piece (1 : Fin 2) xs h j k hk (⟨2, ![n, Ck]⟩ : Shape) x₁ hxk rfl pre hpre _
    (fun b hb => match b with
      | ⟨0, _⟩ => rfl
      | ⟨1, _⟩ => absurd (Fin.ext rfl) hb)
    (by show pre + ((j 1).val - pre) = (j 1).val; omega)

/-! ## Pieces stacked along the rows, and sliced apart again -/

/-- Piece `k` of a row-wise stack of arrays of `C` columns holds the entries whose row lies in its span
    `[pre, pre + nk)`, at the row counted from `pre`. -/
theorem concat_rows_apply {n C : Nat} (xs : List ((s : Shape) × (s.Idx → α)))
    (h : Shape.Concatenates (xs.map (·.1)) (⟨2, ![n, C]⟩ : Shape) 0) (j : (⟨2, ![n, C]⟩ : Shape).Idx)
    (k : Nat) (hk : k < xs.length) (nk : Nat) (x₁ : (⟨2, ![nk, C]⟩ : Shape).Idx → α)
    (hxk : xs[k] = ⟨(⟨2, ![nk, C]⟩ : Shape), x₁⟩) (pre : Nat)
    (hpre : (((xs.take k).map (·.1)).map fun s => if h : s.rank = (⟨2, ![n, C]⟩ : Shape).rank then s.size ((0 : Fin 2).cast h.symm) else 0).sum = pre)
    (hlo : pre ≤ (j 0).val) (hhi : (j 0).val < pre + nk) :
    concatenate (⟨2, ![n, C]⟩ : Shape) 0 xs h j
      = x₁ (fun a => match a with
          | ⟨0, _⟩ => ⟨(j 0).val - pre, by show (j 0).val - pre < nk; omega⟩
          | ⟨1, _⟩ => ⟨(j 1).val, (j 1).isLt⟩) :=
  concatenate_apply_piece (0 : Fin 2) xs h j k hk (⟨2, ![nk, C]⟩ : Shape) x₁ hxk rfl pre hpre _
    (fun b hb => match b with
      | ⟨0, _⟩ => absurd (Fin.ext rfl) hb
      | ⟨1, _⟩ => rfl)
    (by show pre + ((j 0).val - pre) = (j 0).val; omega)

/-- The `nk`-row slice at row `pre` of a row-wise stack is the `nk`-row piece whose span starts at `pre`. -/
theorem slab_slice {N nk C : Nat} (xs : List ((s : Shape) × (s.Idx → α)))
    (h : Shape.Concatenates (xs.map (·.1)) (⟨2, ![N, C]⟩ : Shape) 0)
    (k : Nat) (hk : k < xs.length) (u : (⟨2, ![nk, C]⟩ : Shape).Idx → α) (hxk : xs[k] = ⟨(⟨2, ![nk, C]⟩ : Shape), u⟩) (pre : Nat)
    (hpre : (((xs.take k).map (·.1)).map fun s => if h : s.rank = (⟨2, ![N, C]⟩ : Shape).rank then s.size ((0 : Fin 2).cast h.symm) else 0).sum = pre)
    (hN : pre + nk ≤ N) (hs : (⟨2, ![N, C]⟩ : Shape).Slices ![pre, 0] (⟨2, ![nk, C]⟩ : Shape)) :
    extractStridedSlice (⟨2, ![nk, C]⟩ : Shape) ![pre, 0] (concatenate (⟨2, ![N, C]⟩ : Shape) 0 xs h) hs = u := by
  funext j
  have h0 : (j 0).val < nk := (j 0).isLt
  let K : (⟨2, ![N, C]⟩ : Shape).Idx := fun a => match a with
    | ⟨0, _⟩ => ⟨pre + (j 0).val, by show pre + (j 0).val < N; omega⟩
    | ⟨1, _⟩ => ⟨(j 1).val, (j 1).isLt⟩
  rw [extractStridedSlice_apply ![pre, 0] _ hs j K (fun a => match a with
        | ⟨0, _⟩ => by show pre + (j 0).val = pre + (j 0).val; rfl
        | ⟨1, _⟩ => by show (j 1).val = 0 + (j 1).val; omega),
      concat_rows_apply xs h K k hk nk u hxk pre hpre (by show pre ≤ pre + (j 0).val; omega) (by show pre + (j 0).val < pre + nk; omega)]
  exact congrArg u (funext fun i => by
    match i with
    | ⟨0, _⟩ => exact Fin.ext (by show pre + (j 0).val - pre = (j 0).val; omega)
    | ⟨1, _⟩ => rfl)

end Cert.LibConcatRead

end
-- ==== Proof.RowBlock.lean ====
/-
  Restricting a batch-sized array to one block of 2048 rows, and the operations that commute with it.

  The kernel works on blocks of 2048 rows of arrays whose reference counterparts have all 262144 rows, and every
  operation of either program acts on each row by itself: the elementwise ones at an index, a column slice and a
  column-wise concatenation within a row, a broadcast of a 1×C row to every row, and a matrix product of an
  n×32 array with a 32×32 matrix, whose row `r` is `∑ₖ l(r, k) · w(k, ·)`. So taking block `t` of the result of an
  operation on the whole arrays is the operation on block `t` of its operands. Each lemma here says that for one
  kind of operation; a host `dot_general` and the matrix unit's product into a zero accumulator are the same sum
  on the extended reals.
-/
import proofs.«149484_j84937273246072_2_alg».proof.Defs
import proofs.«149484_j84937273246072_2_alg».proof.Proof.Gen.KernelIdeal
import proofs.«149484_j84937273246072_2_alg».proof.Proof.Gen.ReferenceIdeal
import proofs.«149484_j84937273246072_2_alg».proof.Proof.LibConcatRead
import Idealize.ShloMosaic.Lib.Pipeline.Value
import Idealize.ShloMosaic.Lib.ValueIdx
import Idealize.ShloMosaic.PureOps.Ideal.Laws

noncomputable section

open scoped BigOperators

namespace Cert.RowBlock

open Idealize.ShloMosaic Idealize.ShloMosaic.ValueIdx Cert.LibConcatRead

variable {α : Type}

/-- A whole batch-sized array of `C` columns, and one block of it. -/
abbrev Big (C : Nat) : Shape := ⟨2, ![262144, C]⟩
abbrev Blk (C : Nat) : Shape := ⟨2, ![2048, C]⟩
abbrev Row (C : Nat) : Shape := ⟨2, ![1, C]⟩
abbrev Sq : Shape := ⟨2, ![32, 32]⟩

/-- Index `y` of block `t` is index `(2048·t + y₀, y₁)` of the whole array. -/
def rowIdx (t : Nat) (ht : t < 128) {C : Nat} (y : (Blk C).Idx) : (Big C).Idx := fun a => match a with
  | ⟨0, _⟩ => ⟨2048 * t + (y 0).val, by have h : (y 0).val < 2048 := (y 0).isLt; show 2048 * t + (y 0).val < 262144; omega⟩
  | ⟨1, _⟩ => ⟨(y 1).val, (y 1).isLt⟩

/-- Block `t` of a whole array. -/
def rows (t : Nat) (ht : t < 128) {C : Nat} (x : (Big C).Idx → α) : (Blk C).Idx → α := fun y => x (rowIdx t ht y)

/-! ## Elementwise operations -/

theorem rows_addf (t : Nat) (ht : t < 128) {C : Nat} (a b : FVec Ideal (Big C) .f32) :
    rows t ht (addf a b) = addf (rows t ht a) (rows t ht b) := rfl

theorem rows_mulf (t : Nat) (ht : t < 128) {C : Nat} (a b : FVec Ideal (Big C) .f32) :
    rows t ht (mulf a b) = mulf (rows t ht a) (rows t ht b) := rfl

/-! ## A column slice -/

theorem rows_slice (t : Nat) (ht : t < 128) {Cs Ct : Nat} (off : Nat) (hoff : off + Ct ≤ Cs) (x : (Big Cs).Idx → α)
    (hB : (Big Cs).Slices ![0, off] (Big Ct)) (hb : (Blk Cs).Slices ![0, off] (Blk Ct)) :
    rows t ht (extractStridedSlice (Big Ct) ![0, off] x hB) = extractStridedSlice (Blk Ct) ![0, off] (rows t ht x) hb := by
  funext y
  let k' : (Blk Cs).Idx := fun a => match a with
    | ⟨0, _⟩ => ⟨(y 0).val, (y 0).isLt⟩
    | ⟨1, _⟩ => ⟨off + (y 1).val, by have h : (y 1).val < Ct := (y 1).isLt; show off + (y 1).val < Cs; omega⟩
  show extractStridedSlice (Big Ct) ![0, off] x hB (rowIdx t ht y) = _
  rw [extractStridedSlice_apply ![0, off] x hB (rowIdx t ht y) (rowIdx t ht k') (fun a => match a with
        | ⟨0, _⟩ => by show 2048 * t + (y 0).val = 0 + (2048 * t + (y 0).val); omega
        | ⟨1, _⟩ => by show off + (y 1).val = off + (y 1).val; rfl),
      extractStridedSlice_apply ![0, off] (rows t ht x) hb y k' (fun a => match a with
        | ⟨0, _⟩ => by show (y 0).val = 0 + (y 0).val; omega
        | ⟨1, _⟩ => by show off + (y 1).val = off + (y 1).val; rfl)]
  rfl

/-! ## A 1×C row broadcast to every row, and a scalar to every entry -/

theorem rows_bcastRow (t : Nat) (ht : t < 128) {C : Nat} (hC : C ≠ 1) (x : (Row C).Idx → α)
    (hB : (Row C).BroadcastsInDim (Big C) ![0, 1]) (hb : (Row C).Broadcasts (Blk C)) :
    rows t ht (broadcastInDim (Big C) ![0, 1] hB x) = broadcastTo (Blk C) x hb := by
  funext y
  let k : (Row C).Idx := fun a => match a with
    | ⟨0, _⟩ => ⟨0, by show (0 : Nat) < 1; exact Nat.one_pos⟩
    | ⟨1, _⟩ => ⟨(y 1).val, (y 1).isLt⟩
  show broadcastInDim (Big C) ![0, 1] hB x (rowIdx t ht y) = _
  rw [broadcastInDim_apply ![0, 1] hB x (rowIdx t ht y) k (fun a => match a with
        | ⟨0, _⟩ => by show 0 = if (1 : Nat) = 1 then 0 else _; rw [if_pos rfl]
        | ⟨1, _⟩ => by show (y 1).val = if C = 1 then 0 else (y 1).val; rw [if_neg hC]),
      broadcastTo_apply x hb y k (fun a => match a with
        | ⟨0, _⟩ => by show 0 = if (1 : Nat) = 1 then 0 else _; rw [if_pos rfl]
        | ⟨1, _⟩ => by show (y 1).val = if C = 1 then 0 else (y 1).val; rw [if_neg hC])]

theorem rows_splat (t : Nat) (ht : t < 128) {C : Nat} (c : BitVec 32)
    (hB : (⟨0, ![]⟩ : Shape).BroadcastsInDim (Big C) ![]) :
    rows t ht (broadcastInDim (Big C) ![] hB (constant (F := Ideal) ⟨0, ![]⟩ .f32 c))
      = broadcast (Blk C) (Scalar.ofBits (F := Ideal) .f32 c) := rfl

/-! ## Column-wise concatenations commute with taking a block -/

/-- Two 32-column halves side by side. -/
theorem rows_concat2 (t : Nat) (ht : t < 128) (a b : (Big 32).Idx → α)
    (hB : Shape.Concatenates (([⟨Big 32, a⟩, ⟨Big 32, b⟩] : List ((s : Shape) × (s.Idx → α))).map (·.1)) (Big 64) 1)
    (hb : Shape.Concatenates (([⟨Blk 32, rows t ht a⟩, ⟨Blk 32, rows t ht b⟩] : List ((s : Shape) × (s.Idx → α))).map (·.1)) (Blk 64) 1) :
    rows t ht (concatenate (Big 64) 1 [⟨Big 32, a⟩, ⟨Big 32, b⟩] hB)
      = concatenate (Blk 64) 1 [⟨Blk 32, rows t ht a⟩, ⟨Blk 32, rows t ht b⟩] hb := by
  funext y
  have hy : (y 1).val < 64 := (y 1).isLt
  show concatenate (Big 64) 1 [⟨Big 32, a⟩, ⟨Big 32, b⟩] hB (rowIdx t ht y) = _
  by_cases h : (y 1).val < 32
  · rw [concat_cols_apply _ hB (rowIdx t ht y) 0 (by simp) 32 a rfl 0 rfl (Nat.zero_le _) (by show (y 1).val < 0 + 32; omega),
      concat_cols_apply _ hb y 0 (by simp) 32 (rows t ht a) rfl 0 rfl (Nat.zero_le _) (by show (y 1).val < 0 + 32; omega)]
    unfold rows
    exact congrArg _ (funext fun i => by match i with | ⟨0, _⟩ => rfl | ⟨1, _⟩ => rfl)
  · rw [concat_cols_apply _ hB (rowIdx t ht y) 1 (by simp) 32 b rfl 32 rfl (by show 32 ≤ (y 1).val; omega) (by show (y 1).val < 32 + 32; omega),
      concat_cols_apply _ hb y 1 (by simp) 32 (rows t ht b) rfl 32 rfl (by show 32 ≤ (y 1).val; omega) (by show (y 1).val < 32 + 32; omega)]
    unfold rows
    exact congrArg _ (funext fun i => by match i with | ⟨0, _⟩ => rfl | ⟨1, _⟩ => rfl)

/-- The packed result: 64 columns, then three groups of 32. -/
theorem rows_concat4 (t : Nat) (ht : t < 128) (a : (Big 64).Idx → α) (b c d : (Big 32).Idx → α)
    (hB : Shape.Concatenates (([⟨Big 64, a⟩, ⟨Big 32, b⟩, ⟨Big 32, c⟩, ⟨Big 32, d⟩] : List ((s : Shape) × (s.Idx → α))).map (·.1)) (Big 160) 1)
    (hb : Shape.Concatenates (([⟨Blk 64, rows t ht a⟩, ⟨Blk 32, rows t ht b⟩, ⟨Blk 32, rows t ht c⟩, ⟨Blk 32, rows t ht d⟩] : List ((s : Shape) × (s.Idx → α))).map (·.1)) (Blk 160) 1) :
    rows t ht (concatenate (Big 160) 1 [⟨Big 64, a⟩, ⟨Big 32, b⟩, ⟨Big 32, c⟩, ⟨Big 32, d⟩] hB)
      = concatenate (Blk 160) 1 [⟨Blk 64, rows t ht a⟩, ⟨Blk 32, rows t ht b⟩, ⟨Blk 32, rows t ht c⟩, ⟨Blk 32, rows t ht d⟩] hb := by
  funext y
  have hy : (y 1).val < 160 := (y 1).isLt
  show concatenate (Big 160) 1 [⟨Big 64, a⟩, ⟨Big 32, b⟩, ⟨Big 32, c⟩, ⟨Big 32, d⟩] hB (rowIdx t ht y) = _
  by_cases h0 : (y 1).val < 64
  · rw [concat_cols_apply _ hB (rowIdx t ht y) 0 (by simp) 64 a rfl 0 rfl (Nat.zero_le _) (by show (y 1).val < 0 + 64; omega),
      concat_cols_apply _ hb y 0 (by simp) 64 (rows t ht a) rfl 0 rfl (Nat.zero_le _) (by show (y 1).val < 0 + 64; omega)]
    unfold rows
    exact congrArg _ (funext fun i => by match i with | ⟨0, _⟩ => rfl | ⟨1, _⟩ => rfl)
  by_cases h1 : (y 1).val < 96
  · rw [concat_cols_apply _ hB (rowIdx t ht y) 1 (by simp) 32 b rfl 64 rfl (by show 64 ≤ (y 1).val; omega) (by show (y 1).val < 64 + 32; omega),
      concat_cols_apply _ hb y 1 (by simp) 32 (rows t ht b) rfl 64 rfl (by show 64 ≤ (y 1).val; omega) (by show (y 1).val < 64 + 32; omega)]
    unfold rows
    exact congrArg _ (funext fun i => by match i with | ⟨0, _⟩ => rfl | ⟨1, _⟩ => rfl)
  by_cases h2 : (y 1).val < 128
  · rw [concat_cols_apply _ hB (rowIdx t ht y) 2 (by simp) 32 c rfl 96 rfl (by show 96 ≤ (y 1).val; omega) (by show (y 1).val < 96 + 32; omega),
      concat_cols_apply _ hb y 2 (by simp) 32 (rows t ht c) rfl 96 rfl (by show 96 ≤ (y 1).val; omega) (by show (y 1).val < 96 + 32; omega)]
    unfold rows
    exact congrArg _ (funext fun i => by match i with | ⟨0, _⟩ => rfl | ⟨1, _⟩ => rfl)
  · rw [concat_cols_apply _ hB (rowIdx t ht y) 3 (by simp) 32 d rfl 128 rfl (by show 128 ≤ (y 1).val; omega) (by show (y 1).val < 128 + 32; omega),
      concat_cols_apply _ hb y 3 (by simp) 32 (rows t ht d) rfl 128 rfl (by show 128 ≤ (y 1).val; omega) (by show (y 1).val < 128 + 32; omega)]
    unfold rows
    exact congrArg _ (funext fun i => by match i with | ⟨0, _⟩ => rfl | ⟨1, _⟩ => rfl)

/-! ## The matrix products -/

open Cert.ReferenceIdeal in
/-- The host's product of a 262144×32 array with a 32×32 matrix, at an index: a sum over the shared axis. -/
theorem big_dot_apply (l : FVec Ideal (Big 32) .f32) (r : FVec Ideal Sq .f32) (i : (Big 32).Idx) :
    Host.dotGeneral dot_S262144x32_S32x32_S262144x32_1_0_0_1_n_n none l r i
      = ∑ k : Fin 32, l (ix2 (⟨(i 0).val, (i 0).isLt⟩ : Fin 262144) k) * r (ix2 k (⟨(i 1).val, (i 1).isLt⟩ : Fin 32)) := by
  simp only [Host.dotGeneral]
  rw [Ideal.dotGeneral_apply, ← Equiv.sum_comp (contrEquiv1 dot_S262144x32_S32x32_S262144x32_1_0_0_1_n_n 32 rfl rfl).symm]
  refine Finset.sum_congr rfl fun k _ => ?_
  have hk := contrEquiv1_symm_val dot_S262144x32_S32x32_S262144x32_1_0_0_1_n_n 32 rfl rfl k
  have el : dot_S262144x32_S32x32_S262144x32_1_0_0_1_n_n.lhsIdx i ((contrEquiv1 dot_S262144x32_S32x32_S262144x32_1_0_0_1_n_n 32 rfl rfl).symm k)
      = ix2 (⟨(i 0).val, (i 0).isLt⟩ : Fin 262144) k := funext fun a => Fin.ext (by
    match a with
    | ⟨0, _⟩ =>
      show (dot_S262144x32_S32x32_S262144x32_1_0_0_1_n_n.lhsIdx i _ 0).val = (i 0).val
      unfold DotDims.lhsIdx
      rw [dif_neg (show ¬(0 : Fin S262144x32.rank) ∈ dot_S262144x32_S32x32_S262144x32_1_0_0_1_n_n.lhsBatch by decide), dif_pos (show (0 : Fin S262144x32.rank) ∈ dot_S262144x32_S32x32_S262144x32_1_0_0_1_n_n.lhsNonContracting by decide)]
      rfl
    | ⟨1, _⟩ => exact (dot_S262144x32_S32x32_S262144x32_1_0_0_1_n_n.lhsIdx_val_of_single rfl i _).trans hk)
  have er : dot_S262144x32_S32x32_S262144x32_1_0_0_1_n_n.rhsIdx i ((contrEquiv1 dot_S262144x32_S32x32_S262144x32_1_0_0_1_n_n 32 rfl rfl).symm k)
      = ix2 k (⟨(i 1).val, (i 1).isLt⟩ : Fin 32) := funext fun a => Fin.ext (by
    match a with
    | ⟨0, _⟩ => exact (dot_S262144x32_S32x32_S262144x32_1_0_0_1_n_n.rhsIdx_val_of_single rfl i _).trans hk
    | ⟨1, _⟩ =>
      show (dot_S262144x32_S32x32_S262144x32_1_0_0_1_n_n.rhsIdx i _ 1).val = (i 1).val
      unfold DotDims.rhsIdx
      rw [dif_neg (show ¬(1 : Fin S32x32.rank) ∈ dot_S262144x32_S32x32_S262144x32_1_0_0_1_n_n.rhsBatch by decide), dif_pos (show (1 : Fin S32x32.rank) ∈ dot_S262144x32_S32x32_S262144x32_1_0_0_1_n_n.rhsNonContracting by decide)]
      rfl)
  rw [el, er]

open Cert.KernelIdeal in
/-- The matrix unit's product of a 2048×32 block with a 32×32 matrix into a zero accumulator, at an index: the
    same sum. -/
theorem blk_dot_apply (l : FVec Ideal (Blk 32) .bf16) (r : FVec Ideal Sq .bf16) (y : (Blk 32).Idx) :
    matmul dot_S2048x32_S32x32_S2048x32_1_0_0_1_n_n none l r (constant (F := Ideal) (Blk 32) .f32 0x00000000#32) y
      = ∑ k : Fin 32, l (ix2 (⟨(y 0).val, (y 0).isLt⟩ : Fin 2048) k) * r (ix2 k (⟨(y 1).val, (y 1).isLt⟩ : Fin 32)) := by
  simp only [matmul]
  rw [Ideal.matmul_constant_zero_apply, ← Equiv.sum_comp (contrEquiv1 dot_S2048x32_S32x32_S2048x32_1_0_0_1_n_n 32 rfl rfl).symm]
  refine Finset.sum_congr rfl fun k _ => ?_
  have hk := contrEquiv1_symm_val dot_S2048x32_S32x32_S2048x32_1_0_0_1_n_n 32 rfl rfl k
  have el : dot_S2048x32_S32x32_S2048x32_1_0_0_1_n_n.lhsIdx y ((contrEquiv1 dot_S2048x32_S32x32_S2048x32_1_0_0_1_n_n 32 rfl rfl).symm k)
      = ix2 (⟨(y 0).val, (y 0).isLt⟩ : Fin 2048) k := funext fun a => Fin.ext (by
    match a with
    | ⟨0, _⟩ =>
      show (dot_S2048x32_S32x32_S2048x32_1_0_0_1_n_n.lhsIdx y _ 0).val = (y 0).val
      unfold DotDims.lhsIdx
      rw [dif_neg (show ¬(0 : Fin S2048x32.rank) ∈ dot_S2048x32_S32x32_S2048x32_1_0_0_1_n_n.lhsBatch by decide), dif_pos (show (0 : Fin S2048x32.rank) ∈ dot_S2048x32_S32x32_S2048x32_1_0_0_1_n_n.lhsNonContracting by decide)]
      rfl
    | ⟨1, _⟩ => exact (dot_S2048x32_S32x32_S2048x32_1_0_0_1_n_n.lhsIdx_val_of_single rfl y _).trans hk)
  have er : dot_S2048x32_S32x32_S2048x32_1_0_0_1_n_n.rhsIdx y ((contrEquiv1 dot_S2048x32_S32x32_S2048x32_1_0_0_1_n_n 32 rfl rfl).symm k)
      = ix2 k (⟨(y 1).val, (y 1).isLt⟩ : Fin 32) := funext fun a => Fin.ext (by
    match a with
    | ⟨0, _⟩ => exact (dot_S2048x32_S32x32_S2048x32_1_0_0_1_n_n.rhsIdx_val_of_single rfl y _).trans hk
    | ⟨1, _⟩ =>
      show (dot_S2048x32_S32x32_S2048x32_1_0_0_1_n_n.rhsIdx y _ 1).val = (y 1).val
      unfold DotDims.rhsIdx
      rw [dif_neg (show ¬(1 : Fin S32x32.rank) ∈ dot_S2048x32_S32x32_S2048x32_1_0_0_1_n_n.rhsBatch by decide), dif_pos (show (1 : Fin S32x32.rank) ∈ dot_S2048x32_S32x32_S2048x32_1_0_0_1_n_n.rhsNonContracting by decide)]
      rfl)
  rw [el, er]

/-- Block `t` of the host's product is the matrix unit's product of block `t`: row `2048·t + y₀` of the left
    operand is row `y₀` of its block, and the right operand is shared. -/
theorem rows_dot (t : Nat) (ht : t < 128) (l : FVec Ideal (Big 32) .f32) (r : FVec Ideal Sq .f32) :
    rows t ht (Host.dotGeneral Cert.ReferenceIdeal.dot_S262144x32_S32x32_S262144x32_1_0_0_1_n_n none l r)
      = matmul Cert.KernelIdeal.dot_S2048x32_S32x32_S2048x32_1_0_0_1_n_n none
          (φ₁ := .bf16) (φ₂ := .bf16) (rows t ht l) r (constant (F := Ideal) (Blk 32) .f32 0x00000000#32) := by
  funext y
  show Host.dotGeneral Cert.ReferenceIdeal.dot_S262144x32_S32x32_S262144x32_1_0_0_1_n_n none l r (rowIdx t ht y) = _
  rw [big_dot_apply, blk_dot_apply]
  refine Finset.sum_congr rfl fun k _ => ?_
  have e : (ix2 (⟨(rowIdx t ht y 0).val, (rowIdx t ht y 0).isLt⟩ : Fin 262144) k : (Big 32).Idx)
      = rowIdx t ht (ix2 (⟨(y 0).val, (y 0).isLt⟩ : Fin 2048) k) :=
    funext fun i => by match i with | ⟨0, _⟩ => rfl | ⟨1, _⟩ => rfl
  unfold rows
  exact congrArg₂ (· * ·) (congrArg l e) rfl

/-! ## The same at this kernel's shapes, the block-side shape facts decided once -/

theorem slices_lo : (Blk 64).Slices ![0, 0] (Blk 32) := by decide
theorem slices_hi : (Blk 64).Slices ![0, 32] (Blk 32) := by decide
theorem bcasts64 : (Row 64).Broadcasts (Blk 64) := by decide
theorem bcasts32 : (Row 32).Broadcasts (Blk 32) := by decide
theorem cat2 : Shape.Concatenates [Blk 32, Blk 32] (Blk 64) 1 := by decide
theorem cat4 : Shape.Concatenates [Blk 64, Blk 32, Blk 32, Blk 32] (Blk 160) 1 := by decide

/-- Columns 0–31 of a 64-column array. -/
theorem rows_slice_lo (t : Nat) (ht : t < 128) (x : (Big 64).Idx → α) (hB : (Big 64).Slices ![0, 0] (Big 32)) :
    rows t ht (extractStridedSlice (Big 32) ![0, 0] x hB) = extractStridedSlice (Blk 32) ![0, 0] (rows t ht x) slices_lo :=
  rows_slice t ht 0 (by omega) x hB slices_lo

/-- Columns 32–63 of a 64-column array. -/
theorem rows_slice_hi (t : Nat) (ht : t < 128) (x : (Big 64).Idx → α) (hB : (Big 64).Slices ![0, 32] (Big 32)) :
    rows t ht (extractStridedSlice (Big 32) ![0, 32] x hB) = extractStridedSlice (Blk 32) ![0, 32] (rows t ht x) slices_hi :=
  rows_slice t ht 32 (by omega) x hB slices_hi

theorem rows_bcastRow64 (t : Nat) (ht : t < 128) (x : (Row 64).Idx → α) (hB : (Row 64).BroadcastsInDim (Big 64) ![0, 1]) :
    rows t ht (broadcastInDim (Big 64) ![0, 1] hB x) = broadcastTo (Blk 64) x bcasts64 :=
  rows_bcastRow t ht (by decide) x hB bcasts64

theorem rows_bcastRow32 (t : Nat) (ht : t < 128) (x : (Row 32).Idx → α) (hB : (Row 32).BroadcastsInDim (Big 32) ![0, 1]) :
    rows t ht (broadcastInDim (Big 32) ![0, 1] hB x) = broadcastTo (Blk 32) x bcasts32 :=
  rows_bcastRow t ht (by decide) x hB bcasts32

theorem rows_cat2 (t : Nat) (ht : t < 128) (a b : (Big 32).Idx → α)
    (hB : Shape.Concatenates (([⟨Big 32, a⟩, ⟨Big 32, b⟩] : List ((s : Shape) × (s.Idx → α))).map (·.1)) (Big 64) 1) :
    rows t ht (concatenate (Big 64) 1 [⟨Big 32, a⟩, ⟨Big 32, b⟩] hB)
      = concatenate (Blk 64) 1 [⟨Blk 32, rows t ht a⟩, ⟨Blk 32, rows t ht b⟩] cat2 :=
  rows_concat2 t ht a b hB cat2

theorem rows_cat4 (t : Nat) (ht : t < 128) (a : (Big 64).Idx → α) (b c d : (Big 32).Idx → α)
    (hB : Shape.Concatenates (([⟨Big 64, a⟩, ⟨Big 32, b⟩, ⟨Big 32, c⟩, ⟨Big 32, d⟩] : List ((s : Shape) × (s.Idx → α))).map (·.1)) (Big 160) 1) :
    rows t ht (concatenate (Big 160) 1 [⟨Big 64, a⟩, ⟨Big 32, b⟩, ⟨Big 32, c⟩, ⟨Big 32, d⟩] hB)
      = concatenate (Blk 160) 1 [⟨Blk 64, rows t ht a⟩, ⟨Blk 32, rows t ht b⟩, ⟨Blk 32, rows t ht c⟩, ⟨Blk 32, rows t ht d⟩] cat4 :=
  rows_concat4 t ht a b c d hB cat4

end Cert.RowBlock

end
-- ==== Proof.RefRun.lean ====
/-
  The reference program's run and its stages read one operation at a time, brought into scope for the
  modules that compare the reference's result with the kernel's, index by index.
-/
import proofs.«149484_j84937273246072_2_alg».proof.Defs
import proofs.«149484_j84937273246072_2_alg».proof.Proof.Gen.ReferenceIdeal.Run
import proofs.«149484_j84937273246072_2_alg».proof.Proof.Gen.ReferenceIdeal.Read
-- ==== Proof.BlockValue.lean ====
/-
  Block `t` of the reference's result is the kernel's payload of block `t` of the arguments.

  The reference computes, on whole 262144-row arrays,
      mean  = [ μ·T₁₁ᵀ + λ·T₁₂ᵀ | μ·T₂₁ᵀ + λ·T₂₂ᵀ ] + b ⊙ m₁
      upper = u·(T₁₁²)ᵀ + 2·(s·(T₁₁T₁₂)ᵀ) + l·(T₁₂²)ᵀ + (b² ⊙ c₁)[:, :32] + q[:, :32]
      lower = u·(T₂₁²)ᵀ + 2·(s·(T₂₁T₂₂)ᵀ) + l·(T₂₂²)ᵀ + (b² ⊙ c₁)[:, 32:] + q[:, 32:]
      side  = u·(T₂₁T₁₁)ᵀ + s·(T₂₂T₁₁ + T₂₁T₁₂)ᵀ + l·(T₂₂T₁₂)ᵀ
  (products of matrices entrywise, `q = if p < 0 then exp p else p + 1`), and packs the four groups side by side.
  The kernel computes the same expression on 2048 rows at a time, taking each transposed 32×32 matrix as a
  32-row slice of one of two slabs the host stacked beforehand, with its matrix-unit operands passed through a
  narrower float format — which at the exact values is the identity. Every operation acts row by row, so block
  `t` of the reference's result unfolds, operation by operation, into the kernel's payload.
-/
import proofs.«149484_j84937273246072_2_alg».proof.Proof.RowBlock
import proofs.«149484_j84937273246072_2_alg».proof.Proof.RefRun
import proofs.«149484_j84937273246072_2_alg».proof.Proof.BodyIdeal

set_option maxRecDepth 16384

noncomputable section

namespace Cert.BlockValue

open Idealize.ShloMosaic Idealize.ShloMosaic.ValueIdx Cert.RowBlock Cert.LibConcatRead
open Cert.KernelIdeal Cert.KernelIdeal.Facts₀
open Cert.ReferenceIdeal.Read

/-! ## The weight slabs -/

/-- The four matrices transposed and stacked: rows `32k … 32k+31` are the `k`-th matrix transposed. -/
def meanSlab (a6 a7 a8 a9 : FVec Ideal S32x32 .f32) : FVec Ideal S128x32 .f32 :=
  concatenate S128x32 0 [⟨S32x32, transpose S32x32 [1, 0] (a6) transposes_S32x32_S32x32_1_0⟩, ⟨S32x32, transpose S32x32 [1, 0] (a7) transposes_S32x32_S32x32_1_0⟩, ⟨S32x32, transpose S32x32 [1, 0] (a8) transposes_S32x32_S32x32_1_0⟩, ⟨S32x32, transpose S32x32 [1, 0] (a9) transposes_S32x32_S32x32_1_0⟩]
    concatenates_S32x32_S32x32_S32x32_S32x32_S128x32_d0

/-- The nine entrywise products the covariance terms need, transposed and stacked. -/
def covSlab (a6 a7 a8 a9 : FVec Ideal S32x32 .f32) : FVec Ideal S288x32 .f32 :=
  concatenate S288x32 0 [⟨S32x32, transpose S32x32 [1, 0] (mulf a6 a6) transposes_S32x32_S32x32_1_0⟩,
      ⟨S32x32, transpose S32x32 [1, 0] (mulf a6 a7) transposes_S32x32_S32x32_1_0⟩,
      ⟨S32x32, transpose S32x32 [1, 0] (mulf a7 a7) transposes_S32x32_S32x32_1_0⟩,
      ⟨S32x32, transpose S32x32 [1, 0] (mulf a8 a8) transposes_S32x32_S32x32_1_0⟩,
      ⟨S32x32, transpose S32x32 [1, 0] (mulf a8 a9) transposes_S32x32_S32x32_1_0⟩,
      ⟨S32x32, transpose S32x32 [1, 0] (mulf a9 a9) transposes_S32x32_S32x32_1_0⟩,
      ⟨S32x32, transpose S32x32 [1, 0] (mulf a8 a6) transposes_S32x32_S32x32_1_0⟩,
      ⟨S32x32, transpose S32x32 [1, 0] (addf (mulf a9 a6) (mulf a8 a7)) transposes_S32x32_S32x32_1_0⟩,
      ⟨S32x32, transpose S32x32 [1, 0] (mulf a9 a7) transposes_S32x32_S32x32_1_0⟩]
    concatenates_S32x32_S32x32_S32x32_S32x32_S32x32_S32x32_S32x32_S32x32_S32x32_S288x32_d0

theorem mean_piece0 (a6 a7 a8 a9 : FVec Ideal S32x32 .f32) (hs : S128x32.Slices ![0, 0] S32x32) :
    extractStridedSlice S32x32 ![0, 0] (meanSlab a6 a7 a8 a9) hs = transpose S32x32 [1, 0] (a6) transposes_S32x32_S32x32_1_0 := by
  unfold meanSlab
  exact slab_slice _ _ 0 (by simp) _ rfl 0 rfl (by omega) hs
theorem mean_piece1 (a6 a7 a8 a9 : FVec Ideal S32x32 .f32) (hs : S128x32.Slices ![32, 0] S32x32) :
    extractStridedSlice S32x32 ![32, 0] (meanSlab a6 a7 a8 a9) hs = transpose S32x32 [1, 0] (a7) transposes_S32x32_S32x32_1_0 := by
  unfold meanSlab
  exact slab_slice _ _ 1 (by simp) _ rfl 32 rfl (by omega) hs
theorem mean_piece2 (a6 a7 a8 a9 : FVec Ideal S32x32 .f32) (hs : S128x32.Slices ![64, 0] S32x32) :
    extractStridedSlice S32x32 ![64, 0] (meanSlab a6 a7 a8 a9) hs = transpose S32x32 [1, 0] (a8) transposes_S32x32_S32x32_1_0 := by
  unfold meanSlab
  exact slab_slice _ _ 2 (by simp) _ rfl 64 rfl (by omega) hs
theorem mean_piece3 (a6 a7 a8 a9 : FVec Ideal S32x32 .f32) (hs : S128x32.Slices ![96, 0] S32x32) :
    extractStridedSlice S32x32 ![96, 0] (meanSlab a6 a7 a8 a9) hs = transpose S32x32 [1, 0] (a9) transposes_S32x32_S32x32_1_0 := by
  unfold meanSlab
  exact slab_slice _ _ 3 (by simp) _ rfl 96 rfl (by omega) hs

theorem cov_piece0 (a6 a7 a8 a9 : FVec Ideal S32x32 .f32) (hs : S288x32.Slices ![0, 0] S32x32) :
    extractStridedSlice S32x32 ![0, 0] (covSlab a6 a7 a8 a9) hs = transpose S32x32 [1, 0] (mulf a6 a6) transposes_S32x32_S32x32_1_0 := by
  unfold covSlab
  exact slab_slice _ _ 0 (by simp) _ rfl 0 rfl (by omega) hs
theorem cov_piece1 (a6 a7 a8 a9 : FVec Ideal S32x32 .f32) (hs : S288x32.Slices ![32, 0] S32x32) :
    extractStridedSlice S32x32 ![32, 0] (covSlab a6 a7 a8 a9) hs = transpose S32x32 [1, 0] (mulf a6 a7) transposes_S32x32_S32x32_1_0 := by
  unfold covSlab
  exact slab_slice _ _ 1 (by simp) _ rfl 32 rfl (by omega) hs
theorem cov_piece2 (a6 a7 a8 a9 : FVec Ideal S32x32 .f32) (hs : S288x32.Slices ![64, 0] S32x32) :
    extractStridedSlice S32x32 ![64, 0] (covSlab a6 a7 a8 a9) hs = transpose S32x32 [1, 0] (mulf a7 a7) transposes_S32x32_S32x32_1_0 := by
  unfold covSlab
  exact slab_slice _ _ 2 (by simp) _ rfl 64 rfl (by omega) hs
theorem cov_piece3 (a6 a7 a8 a9 : FVec Ideal S32x32 .f32) (hs : S288x32.Slices ![96, 0] S32x32) :
    extractStridedSlice S32x32 ![96, 0] (covSlab a6 a7 a8 a9) hs = transpose S32x32 [1, 0] (mulf a8 a8) transposes_S32x32_S32x32_1_0 := by
  unfold covSlab
  exact slab_slice _ _ 3 (by simp) _ rfl 96 rfl (by omega) hs
theorem cov_piece4 (a6 a7 a8 a9 : FVec Ideal S32x32 .f32) (hs : S288x32.Slices ![128, 0] S32x32) :
    extractStridedSlice S32x32 ![128, 0] (covSlab a6 a7 a8 a9) hs = transpose S32x32 [1, 0] (mulf a8 a9) transposes_S32x32_S32x32_1_0 := by
  unfold covSlab
  exact slab_slice _ _ 4 (by simp) _ rfl 128 rfl (by omega) hs
theorem cov_piece5 (a6 a7 a8 a9 : FVec Ideal S32x32 .f32) (hs : S288x32.Slices ![160, 0] S32x32) :
    extractStridedSlice S32x32 ![160, 0] (covSlab a6 a7 a8 a9) hs = transpose S32x32 [1, 0] (mulf a9 a9) transposes_S32x32_S32x32_1_0 := by
  unfold covSlab
  exact slab_slice _ _ 5 (by simp) _ rfl 160 rfl (by omega) hs
theorem cov_piece6 (a6 a7 a8 a9 : FVec Ideal S32x32 .f32) (hs : S288x32.Slices ![192, 0] S32x32) :
    extractStridedSlice S32x32 ![192, 0] (covSlab a6 a7 a8 a9) hs = transpose S32x32 [1, 0] (mulf a8 a6) transposes_S32x32_S32x32_1_0 := by
  unfold covSlab
  exact slab_slice _ _ 6 (by simp) _ rfl 192 rfl (by omega) hs
theorem cov_piece7 (a6 a7 a8 a9 : FVec Ideal S32x32 .f32) (hs : S288x32.Slices ![224, 0] S32x32) :
    extractStridedSlice S32x32 ![224, 0] (covSlab a6 a7 a8 a9) hs = transpose S32x32 [1, 0] (addf (mulf a9 a6) (mulf a8 a7)) transposes_S32x32_S32x32_1_0 := by
  unfold covSlab
  exact slab_slice _ _ 7 (by simp) _ rfl 224 rfl (by omega) hs
theorem cov_piece8 (a6 a7 a8 a9 : FVec Ideal S32x32 .f32) (hs : S288x32.Slices ![256, 0] S32x32) :
    extractStridedSlice S32x32 ![256, 0] (covSlab a6 a7 a8 a9) hs = transpose S32x32 [1, 0] (mulf a9 a7) transposes_S32x32_S32x32_1_0 := by
  unfold covSlab
  exact slab_slice _ _ 8 (by simp) _ rfl 256 rfl (by omega) hs

/-! ## Format changes and identity reshapes do nothing at the exact values -/

theorem truncf_id {s : Shape} {φ ψ : FTy} (a : FVec Ideal s φ) (h : ψ.bits < φ.bits) : (truncf ψ a h : FVec Ideal s ψ) = a := rfl

/-! ## The block of the reference's result -/

set_option maxHeartbeats 4000000 in
/-- Block `t` of the reference's packed result is the kernel's payload of block `t` of the six batch-sized
    arguments, the two slabs, and the two 1×64 rows. -/
theorem block_value (t : Nat) (ht : t < 128)
    (a0 : FVec Ideal (Big 64) .f32) (a1 a2 a3 : FVec Ideal (Big 32) .f32) (a4 a5 : FVec Ideal (Big 64) .f32)
    (a6 a7 a8 a9 : FVec Ideal S32x32 .f32) (a10 a11 : FVec Ideal S1x64 .f32) :
    rows t ht (C := 160) (α := EReal) (val_main_v74 (F := Ideal) a0 a1 a2 a3 a4 a5 a6 a7 a8 a9 a10 a11)
      = Cert.KernelIdeal.Body.payload (F := Ideal) (rows t ht a0) (rows t ht a1) (rows t ht a2) (rows t ht a3) (rows t ht a4)
          (rows t ht a5) (meanSlab a6 a7 a8 a9) (covSlab a6 a7 a8 a9) a10 a11 := by
  -- the reference's stages, opened down to the arguments
  simp only [val_main_v74, val_main_v73, val_main_v72, val_main_v71, val_main_v70, val_main_v69, val_main_v68, val_main_v67, val_main_v66, val_main_v65, val_main_v64, val_main_v63, val_main_v62, val_main_v61, val_main_cst_2, val_main_v60, val_main_v59, val_main_v58, val_main_cst_1, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_cst_0, val_main_v30, val_main_v29, val_main_v28, val_main_v27, val_main_v26, val_main_v25, val_main_v24, val_main_v23, val_main_v22, val_main_v21, val_main_v20, val_main_v19, val_main_v18, val_main_cst, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  -- block `t` of each operation is the operation on block `t`, from the outside in
  repeat (first
    | rw [rows_cat4] | rw [rows_cat2] | rw [rows_dot] | rw [rows_slice_lo] | rw [rows_slice_hi]
    | rw [rows_bcastRow64] | rw [rows_bcastRow32] | rw [rows_splat] | rw [rows_addf] | rw [rows_mulf])
  -- the kernel's payload, opened down to the loaded blocks
  simp only [Cert.KernelIdeal.Body.payload, Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25]
  -- format changes and identity reshapes drop out; each slice of a slab is its transposed matrix
  simp only [truncf_id]
  repeat rw [shapeCast_self]
  rw [mean_piece0, mean_piece1, mean_piece2, mean_piece3, cov_piece0, cov_piece1, cov_piece2, cov_piece3, cov_piece4, cov_piece5, cov_piece6, cov_piece7, cov_piece8]
  rfl

end Cert.BlockValue

end
-- ==== Proof.KernelValue.lean ====
/-
  What the kernel's result array holds after the run.

  Grid point `t` takes rows `2048·t … 2048·t + 2047` of each batch-sized argument and of the result, and the two
  weight slabs and the two 1×64 rows whole: the printed index maps say so, and they are decided once over the 128
  points. So the block the body is handed for a batch-sized argument is block `t` of that argument as launched,
  the slabs it is handed are the stacks the host operations built from the four 32×32 matrices, and what it
  writes back is, by the row-by-row comparison, block `t` of ONE function of the twelve arguments — the function
  the reference program computes. The 128 blocks tile the result array (row `r` lies in the block of point
  `r / 2048`), so after the run the whole array is that function of the arguments.
-/
import proofs.«149484_j84937273246072_2_alg».proof.Proof.BlockValue
import Idealize.ShloMosaic.Lib.StableHlo.Run

set_option maxRecDepth 16384

noncomputable section

namespace Cert.KernelValue

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Entry Cert.KernelIdeal.Body
open Cert.RowBlock Cert.BlockValue

variable (m : (ℓ : Loc nD τ sig) → Buf (Elt Ideal) ℓ) (ρ : Dev nD → PrngReg)

theorem hz : (![0, 0] : Fin 2 → Nat) = fun _ => 0 := funext fun a => by fin_cases a <;> rfl

/-- The grid has 128 points. -/
theorem point_lt (t : Fin cfg0.N) : t.val < 128 := Nat.lt_of_lt_of_eq t.isLt N_0

/-! ## The printed index maps, decided over the grid -/

/-- The batch-sized windows and the result's move down one block of rows per point. -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_10.index t (0 : Fin 2) = t.val ∧ win0_10.index t (1 : Fin 2) = 0 :=
  (by decide +kernel : ∀ t : Fin grid0.N, _)

/-- The slabs and the 1×64 rows stay at block 0. -/
theorem idx_fixed : ∀ t : Fin cfg0.N,
    win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-! ## A window's block at a point, read off an array -/

theorem read_moving_0 (t : Fin cfg0.N) (A : S262144x64.Idx → Elt Ideal .f32) :
    ((cfg0.win 0).blk t).view.read (Elt Ideal) A = rows t.val (point_lt t) A := by
  funext y
  have h := idx_moving t
  have h0 : win0_0.index t (0 : Fin 2) = t.val := h.1
  have h1 : win0_0.index t (1 : Fin 2) = 0 := h.2.1
  show A (((cfg0.win 0).blk t).view.emb y) = A (rowIdx t.val (point_lt t) y)
  refine congrArg A (funext fun a => Fin.ext ?_)
  match a with
  | ⟨0, _⟩ => show win0_0.index t (0 : Fin 2) * 2048 + 1 * (y 0).val = 2048 * t.val + (y 0).val; omega
  | ⟨1, _⟩ => show win0_0.index t (1 : Fin 2) * 64 + 1 * (y 1).val = (y 1).val; omega

theorem read_moving_1 (t : Fin cfg0.N) (A : S262144x32.Idx → Elt Ideal .f32) :
    ((cfg0.win 1).blk t).view.read (Elt Ideal) A = rows t.val (point_lt t) A := by
  funext y
  have h := idx_moving t
  have h0 : win0_1.index t (0 : Fin 2) = t.val := h.2.2.1
  have h1 : win0_1.index t (1 : Fin 2) = 0 := h.2.2.2.1
  show A (((cfg0.win 1).blk t).view.emb y) = A (rowIdx t.val (point_lt t) y)
  refine congrArg A (funext fun a => Fin.ext ?_)
  match a with
  | ⟨0, _⟩ => show win0_1.index t (0 : Fin 2) * 2048 + 1 * (y 0).val = 2048 * t.val + (y 0).val; omega
  | ⟨1, _⟩ => show win0_1.index t (1 : Fin 2) * 32 + 1 * (y 1).val = (y 1).val; omega

theorem read_moving_2 (t : Fin cfg0.N) (A : S262144x32.Idx → Elt Ideal .f32) :
    ((cfg0.win 2).blk t).view.read (Elt Ideal) A = rows t.val (point_lt t) A := by
  funext y
  have h := idx_moving t
  have h0 : win0_2.index t (0 : Fin 2) = t.val := h.2.2.2.2.1
  have h1 : win0_2.index t (1 : Fin 2) = 0 := h.2.2.2.2.2.1
  show A (((cfg0.win 2).blk t).view.emb y) = A (rowIdx t.val (point_lt t) y)
  refine congrArg A (funext fun a => Fin.ext ?_)
  match a with
  | ⟨0, _⟩ => show win0_2.index t (0 : Fin 2) * 2048 + 1 * (y 0).val = 2048 * t.val + (y 0).val; omega
  | ⟨1, _⟩ => show win0_2.index t (1 : Fin 2) * 32 + 1 * (y 1).val = (y 1).val; omega

theorem read_moving_3 (t : Fin cfg0.N) (A : S262144x32.Idx → Elt Ideal .f32) :
    ((cfg0.win 3).blk t).view.read (Elt Ideal) A = rows t.val (point_lt t) A := by
  funext y
  have h := idx_moving t
  have h0 : win0_3.index t (0 : Fin 2) = t.val := h.2.2.2.2.2.2.1
  have h1 : win0_3.index t (1 : Fin 2) = 0 := h.2.2.2.2.2.2.2.1
  show A (((cfg0.win 3).blk t).view.emb y) = A (rowIdx t.val (point_lt t) y)
  refine congrArg A (funext fun a => Fin.ext ?_)
  match a with
  | ⟨0, _⟩ => show win0_3.index t (0 : Fin 2) * 2048 + 1 * (y 0).val = 2048 * t.val + (y 0).val; omega
  | ⟨1, _⟩ => show win0_3.index t (1 : Fin 2) * 32 + 1 * (y 1).val = (y 1).val; omega

theorem read_moving_4 (t : Fin cfg0.N) (A : S262144x64.Idx → Elt Ideal .f32) :
    ((cfg0.win 4).blk t).view.read (Elt Ideal) A = rows t.val (point_lt t) A := by
  funext y
  have h := idx_moving t
  have h0 : win0_4.index t (0 : Fin 2) = t.val := h.2.2.2.2.2.2.2.2.1
  have h1 : win0_4.index t (1 : Fin 2) = 0 := h.2.2.2.2.2.2.2.2.2.1
  show A (((cfg0.win 4).blk t).view.emb y) = A (rowIdx t.val (point_lt t) y)
  refine congrArg A (funext fun a => Fin.ext ?_)
  match a with
  | ⟨0, _⟩ => show win0_4.index t (0 : Fin 2) * 2048 + 1 * (y 0).val = 2048 * t.val + (y 0).val; omega
  | ⟨1, _⟩ => show win0_4.index t (1 : Fin 2) * 64 + 1 * (y 1).val = (y 1).val; omega

theorem read_moving_5 (t : Fin cfg0.N) (A : S262144x64.Idx → Elt Ideal .f32) :
    ((cfg0.win 5).blk t).view.read (Elt Ideal) A = rows t.val (point_lt t) A := by
  funext y
  have h := idx_moving t
  have h0 : win0_5.index t (0 : Fin 2) = t.val := h.2.2.2.2.2.2.2.2.2.2.1
  have h1 : win0_5.index t (1 : Fin 2) = 0 := h.2.2.2.2.2.2.2.2.2.2.2.1
  show A (((cfg0.win 5).blk t).view.emb y) = A (rowIdx t.val (point_lt t) y)
  refine congrArg A (funext fun a => Fin.ext ?_)
  match a with
  | ⟨0, _⟩ => show win0_5.index t (0 : Fin 2) * 2048 + 1 * (y 0).val = 2048 * t.val + (y 0).val; omega
  | ⟨1, _⟩ => show win0_5.index t (1 : Fin 2) * 64 + 1 * (y 1).val = (y 1).val; omega

theorem read_moving_10 (t : Fin cfg0.N) (A : S262144x160.Idx → Elt Ideal .f32) :
    ((cfg0.win 10).blk t).view.read (Elt Ideal) A = rows t.val (point_lt t) A := by
  funext y
  have h := idx_moving t
  have h0 : win0_10.index t (0 : Fin 2) = t.val := h.2.2.2.2.2.2.2.2.2.2.2.2.1
  have h1 : win0_10.index t (1 : Fin 2) = 0 := h.2.2.2.2.2.2.2.2.2.2.2.2.2
  show A (((cfg0.win 10).blk t).view.emb y) = A (rowIdx t.val (point_lt t) y)
  refine congrArg A (funext fun a => Fin.ext ?_)
  match a with
  | ⟨0, _⟩ => show win0_10.index t (0 : Fin 2) * 2048 + 1 * (y 0).val = 2048 * t.val + (y 0).val; omega
  | ⟨1, _⟩ => show win0_10.index t (1 : Fin 2) * 160 + 1 * (y 1).val = (y 1).val; omega

theorem read_fixed_6 (t : Fin cfg0.N) (A : S128x32.Idx → Elt Ideal .f32) :
    ((cfg0.win 6).blk t).view.read (Elt Ideal) A = A := by
  funext y
  have h := idx_fixed t
  have h0 : win0_6.index t (0 : Fin 2) = 0 := h.1
  have h1 : win0_6.index t (1 : Fin 2) = 0 := h.2.1
  show A (((cfg0.win 6).blk t).view.emb y) = A y
  refine congrArg A (funext fun a => Fin.ext ?_)
  match a with
  | ⟨0, _⟩ => show win0_6.index t (0 : Fin 2) * 128 + 1 * (y 0).val = (y 0).val; omega
  | ⟨1, _⟩ => show win0_6.index t (1 : Fin 2) * 32 + 1 * (y 1).val = (y 1).val; omega

theorem read_fixed_7 (t : Fin cfg0.N) (A : S288x32.Idx → Elt Ideal .f32) :
    ((cfg0.win 7).blk t).view.read (Elt Ideal) A = A := by
  funext y
  have h := idx_fixed t
  have h0 : win0_7.index t (0 : Fin 2) = 0 := h.2.2.1
  have h1 : win0_7.index t (1 : Fin 2) = 0 := h.2.2.2.1
  show A (((cfg0.win 7).blk t).view.emb y) = A y
  refine congrArg A (funext fun a => Fin.ext ?_)
  match a with
  | ⟨0, _⟩ => show win0_7.index t (0 : Fin 2) * 288 + 1 * (y 0).val = (y 0).val; omega
  | ⟨1, _⟩ => show win0_7.index t (1 : Fin 2) * 32 + 1 * (y 1).val = (y 1).val; omega

theorem read_fixed_8 (t : Fin cfg0.N) (A : S1x64.Idx → Elt Ideal .f32) :
    ((cfg0.win 8).blk t).view.read (Elt Ideal) A = A := by
  funext y
  have h := idx_fixed t
  have h0 : win0_8.index t (0 : Fin 2) = 0 := h.2.2.2.2.1
  have h1 : win0_8.index t (1 : Fin 2) = 0 := h.2.2.2.2.2.1
  show A (((cfg0.win 8).blk t).view.emb y) = A y
  refine congrArg A (funext fun a => Fin.ext ?_)
  match a with
  | ⟨0, _⟩ => show win0_8.index t (0 : Fin 2) * 1 + 1 * (y 0).val = (y 0).val; omega
  | ⟨1, _⟩ => show win0_8.index t (1 : Fin 2) * 64 + 1 * (y 1).val = (y 1).val; omega

theorem read_fixed_9 (t : Fin cfg0.N) (A : S1x64.Idx → Elt Ideal .f32) :
    ((cfg0.win 9).blk t).view.read (Elt Ideal) A = A := by
  funext y
  have h := idx_fixed t
  have h0 : win0_9.index t (0 : Fin 2) = 0 := h.2.2.2.2.2.2.1
  have h1 : win0_9.index t (1 : Fin 2) = 0 := h.2.2.2.2.2.2.2
  show A (((cfg0.win 9).blk t).view.emb y) = A y
  refine congrArg A (funext fun a => Fin.ext ?_)
  match a with
  | ⟨0, _⟩ => show win0_9.index t (0 : Fin 2) * 1 + 1 * (y 0).val = (y 0).val; omega
  | ⟨1, _⟩ => show win0_9.index t (1 : Fin 2) * 64 + 1 * (y 1).val = (y 1).val; omega

/-! ## The slabs the region finds -/

/-- The 128×32 slab is the four matrices transposed and stacked. -/
theorem V_meanSlab (c : Dev nD) :
    (V m c main_v4 : S128x32.Idx → Elt Ideal .f32) = meanSlab (m ((c.tc : Thread nD τ).loc main_arg6)) (m ((c.tc : Thread nD τ).loc main_arg7)) (m ((c.tc : Thread nD τ).loc main_arg8)) (m ((c.tc : Thread nD τ).loc main_arg9)) := by
  dsimp only [V]
  simp only [hostOps0, List.flatten_cons, List.flatten_nil, List.append_nil, List.cons_append, List.nil_append]
  after_results
  rfl

/-- The 288×32 slab is the nine entrywise products transposed and stacked. -/
theorem V_covSlab (c : Dev nD) :
    (V m c main_v25 : S288x32.Idx → Elt Ideal .f32) = covSlab (m ((c.tc : Thread nD τ).loc main_arg6)) (m ((c.tc : Thread nD τ).loc main_arg7)) (m ((c.tc : Thread nD τ).loc main_arg8)) (m ((c.tc : Thread nD τ).loc main_arg9)) := by
  dsimp only [V]
  simp only [hostOps0, List.flatten_cons, List.flatten_nil, List.append_nil, List.cons_append, List.nil_append]
  after_results
  rfl

/-! ## The blocks the body is handed -/

theorem block_0 (c : Dev nD) (t : Fin cfg0.N) :
    blockAt m c 0 t = rows t.val (point_lt t) (m ((c.tc : Thread nD τ).loc main_arg0)) := by
  show ((cfg0.win 0).blk t).view.read (Elt Ideal) (V m c main_arg0) = _
  rw [read_moving_0, V_main_arg0]
theorem block_1 (c : Dev nD) (t : Fin cfg0.N) :
    blockAt m c 1 t = rows t.val (point_lt t) (m ((c.tc : Thread nD τ).loc main_arg1)) := by
  show ((cfg0.win 1).blk t).view.read (Elt Ideal) (V m c main_arg1) = _
  rw [read_moving_1, V_main_arg1]
theorem block_2 (c : Dev nD) (t : Fin cfg0.N) :
    blockAt m c 2 t = rows t.val (point_lt t) (m ((c.tc : Thread nD τ).loc main_arg2)) := by
  show ((cfg0.win 2).blk t).view.read (Elt Ideal) (V m c main_arg2) = _
  rw [read_moving_2, V_main_arg2]
theorem block_3 (c : Dev nD) (t : Fin cfg0.N) :
    blockAt m c 3 t = rows t.val (point_lt t) (m ((c.tc : Thread nD τ).loc main_arg3)) := by
  show ((cfg0.win 3).blk t).view.read (Elt Ideal) (V m c main_arg3) = _
  rw [read_moving_3, V_main_arg3]
theorem block_4 (c : Dev nD) (t : Fin cfg0.N) :
    blockAt m c 4 t = rows t.val (point_lt t) (m ((c.tc : Thread nD τ).loc main_arg4)) := by
  show ((cfg0.win 4).blk t).view.read (Elt Ideal) (V m c main_arg4) = _
  rw [read_moving_4, V_main_arg4]
theorem block_5 (c : Dev nD) (t : Fin cfg0.N) :
    blockAt m c 5 t = rows t.val (point_lt t) (m ((c.tc : Thread nD τ).loc main_arg5)) := by
  show ((cfg0.win 5).blk t).view.read (Elt Ideal) (V m c main_arg5) = _
  rw [read_moving_5, V_main_arg5]
theorem block_6 (c : Dev nD) (t : Fin cfg0.N) : blockAt m c 6 t = meanSlab (m ((c.tc : Thread nD τ).loc main_arg6)) (m ((c.tc : Thread nD τ).loc main_arg7)) (m ((c.tc : Thread nD τ).loc main_arg8)) (m ((c.tc : Thread nD τ).loc main_arg9)) := by
  show ((cfg0.win 6).blk t).view.read (Elt Ideal) (V m c main_v4) = _
  rw [read_fixed_6, V_meanSlab]
theorem block_7 (c : Dev nD) (t : Fin cfg0.N) : blockAt m c 7 t = covSlab (m ((c.tc : Thread nD τ).loc main_arg6)) (m ((c.tc : Thread nD τ).loc main_arg7)) (m ((c.tc : Thread nD τ).loc main_arg8)) (m ((c.tc : Thread nD τ).loc main_arg9)) := by
  show ((cfg0.win 7).blk t).view.read (Elt Ideal) (V m c main_v25) = _
  rw [read_fixed_7, V_covSlab]
theorem block_8 (c : Dev nD) (t : Fin cfg0.N) : blockAt m c 8 t = (m ((c.tc : Thread nD τ).loc main_arg10)) := by
  show ((cfg0.win 8).blk t).view.read (Elt Ideal) (V m c main_arg10) = _
  rw [read_fixed_8, V_main_arg10]
theorem block_9 (c : Dev nD) (t : Fin cfg0.N) : blockAt m c 9 t = (m ((c.tc : Thread nD τ).loc main_arg11)) := by
  show ((cfg0.win 9).blk t).view.read (Elt Ideal) (V m c main_arg11) = _
  rw [read_fixed_9, V_main_arg11]

/-! ## The result array -/

/-- The reference's function of this program's own argument arrays: what the result array ends holding. -/
def result (c : Dev nD) : S262144x160.Idx → Elt Ideal .f32 :=
  Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- What point `t` writes back is block `t` of `result`. -/
theorem written_back (c : Dev nD) (t : Fin cfg0.N) :
    (dats m 0 c).flushed 10 t = ((cfg0.win 10).blk t).view.read (Elt Ideal) (result m c) := by
  show (cfg0.win 10).cut (grid0.coords t) ((dats m 0 c).after 10 t) = _
  rw [after_10, outBlock_eq, View.canon_unit_zero hz]
  simp only [View.ld_unit_zero (S := S2048x64) hz, View.ld_unit_zero (S := S2048x32) hz, View.ld_unit_zero (S := S128x32) hz,
    View.ld_unit_zero (S := S288x32) hz, View.ld_unit_zero (S := S1x64) hz]
  rw [read_moving_10, block_0, block_1, block_2, block_3, block_4, block_5, block_6, block_7, block_8, block_9]
  exact (block_value t.val (point_lt t) _ _ _ _ _ _ _ _ _ _ _ _).symm

/-- An index of the result array is in point `t`'s block iff each coordinate is in the block's range on its axis. -/
theorem mem_block (t : Fin cfg0.N) (i : S262144x160.Idx) :
    i ∈ ((cfg0.win 10).blk t).view.set ↔ ∀ a : Fin 2, win0_10.index t a * S2048x160.size a ≤ (i a).val ∧ (i a).val < win0_10.index t a * S2048x160.size a + S2048x160.size a := by
  show i ∈ ((View.whole main_v26).slice (win0_10.rect t)).set ↔ _
  rw [View.set_slice_whole, Rect.mem_set_unit]
  exact Iff.rfl

/-- Every index of the result array is in the block of the point `row / 2048`, which writes back. -/
theorem covered (i : S262144x160.Idx) :
    ∃ t : Fin cfg0.N, (cfg0.win 10).flush t = true ∧ i ∈ ((cfg0.win 10).blk t).view.set := by
  have hi0 : (i 0).val < 262144 := (i 0).isLt
  have hi1 : (i 1).val < 160 := (i 1).isLt
  let t : Fin cfg0.N := ⟨(i 0).val / 2048, by show (i 0).val / 2048 < grid0.N; rw [N_0]; omega⟩
  have h := idx_moving t
  have h0 : win0_10.index t (0 : Fin 2) = (i 0).val / 2048 := h.2.2.2.2.2.2.2.2.2.2.2.2.1
  have h1 : win0_10.index t (1 : Fin 2) = 0 := h.2.2.2.2.2.2.2.2.2.2.2.2.2
  refine ⟨t, flush0_10 t, ?_⟩
  rw [mem_block]
  intro a
  match a with
  | ⟨0, _⟩ => show win0_10.index t (0 : Fin 2) * 2048 ≤ (i 0).val ∧ (i 0).val < win0_10.index t (0 : Fin 2) * 2048 + 2048; omega
  | ⟨1, _⟩ => show win0_10.index t (1 : Fin 2) * 160 ≤ (i 1).val ∧ (i 1).val < win0_10.index t (1 : Fin 2) * 160 + 160; omega

/-- After the run the result array is `result`. -/
theorem final (c : Dev nD) : (dats m 0 c).arrAt 10 cfg0.N = result m c :=
  (dats m 0 c).arrAt_eq_of_cover 10 (result m c) (fun t _ => written_back m c t) covered

/-! ## The run, read -/

/-- Every weakly fair execution terminates with the result array at `result` and the arguments unchanged. -/
theorem run : θ_run defs (onTc (τ := τ) (main (F := Ideal))) ⟨m, fun _ => 0, ρ⟩ fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 10).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 8).trans (((dats m 0 c).arrAt_in 8 rfl _).trans ((A_eq m c 8).trans (V_main_arg10 m c))),
      ((h c).1 9).trans (((dats m 0 c).arrAt_in 9 rfl _).trans ((A_eq m c 9).trans (V_main_arg11 m c)))⟩)
    (run_main m ρ)

end Cert.KernelValue

end
-- ==== Proof.lean ====
/-
  The certificate of the Kalman predict step: a Pallas kernel over 128 blocks of 2048 rows against its jnp
  reference over all 262144 rows.

  Both programs compute, row by row, the packed result  [ mean | upper | lower | side ]  of a block-structured
  linear map of a Gaussian state: the mean through the four 32×32 transition blocks, the three covariance bands
  through entrywise products of those blocks, an elementwise second factor `b ⊙ ·` and `b² ⊙ ·`, and the process
  noise `if p < 0 then exp p else p + 1`. The kernel takes the transposed blocks as slices of two slabs stacked on
  the host beforehand and feeds its matrix unit through a narrower float format; on the extended reals a format
  change is the identity and the matrix unit's product into a zero accumulator is the host's `dot_general`, the
  same sum over the shared axis. No finiteness is needed: the two sides are the same operations in the same order,
  so nothing is distributed, cancelled or moved across a sum.

  * the frames of the kernel program, at the word level and at the exact values, are its one region's frame
    run (the body loads ten blocks whole, stores the output block whole, and keeps nothing between points);
  * the reference's frame is its run with the result dropped;
  * the idealization rewrote nothing, so there is nothing to preserve;
  * the algebraic claim: the kernel's result array ends at the reference's function of the kernel's own
    arguments (block `t` of that function is what grid point `t` writes back, and the blocks tile the array),
    and the reference ends at the same function of arguments that agree.
-/
import proofs.«149484_j84937273246072_2_alg».proof.Defs
import proofs.«149484_j84937273246072_2_alg».proof.Proof.Gen.Kernel
import proofs.«149484_j84937273246072_2_alg».proof.Proof.Gen.KernelIdeal
import proofs.«149484_j84937273246072_2_alg».proof.Proof.Gen.ReferenceIdeal
import proofs.«149484_j84937273246072_2_alg».proof.Proof.Gen.Pre_finite_inputs
import proofs.«149484_j84937273246072_2_alg».proof.Proof.BodyBits
import proofs.«149484_j84937273246072_2_alg».proof.Proof.BodyIdeal
import proofs.«149484_j84937273246072_2_alg».proof.Proof.KernelValue

noncomputable section

namespace Cert.Proof

open Idealize.ShloMosaic Idealize.SL.Sem

/-- The kernel program at the word level runs and keeps its arguments. -/
theorem frame_kernel : Cert.frame_Kernel := fun m ρ _ => Cert.Kernel.Body.frame m ρ

/-- The same program read at the exact values. -/
theorem frame_kernel_ideal : Cert.frame_KernelIdeal := fun m ρ _ => Cert.KernelIdeal.Body.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the twelve arguments both programs end at ONE array: the reference's function of
    the arguments, which the kernel's blocks tile and the reference's run computes. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq]
  obtain ⟨e0, e1, e2, e3, e4, e5, e6, e7, e8, e9, e10, e11⟩ := hagree c
  rw [e0, e1, e2, e3, e4, e5, e6, e7, e8, e9, e10, e11]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
